-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v99)) (v1 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_v101) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S2x1600000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S8000x64 : Shape := ⟨2, ![8000, 64]⟩
abbrev S8000x1 : Shape := ⟨2, ![8000, 1]⟩
abbrev S8000 : Shape := ⟨1, ![8000]⟩

abbrev nBuf : Space → Nat
  | .hbm => 133
  | .vmem => 22
  | .smem => 0
  | _ => 0

abbrev hbmTy0_0 (i : Nat) : BufTy := match i % 128 with
  | 0 => ⟨S100000x128, .f32⟩
  | 1 => ⟨S2x1600000, .i32⟩
  | 2 => ⟨S2x1600000, .i32⟩
  | 3 => ⟨S128x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x128, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x1, .f32⟩
  | 84 => ⟨S1700000x64, .f32⟩
  | 85 => ⟨S1700000x64, .f32⟩
  | 86 => ⟨S_, .f32⟩
  | 87 => ⟨S100000x64, .f32⟩
  | 88 => ⟨S1700000x1, .i32⟩
  | 89 => ⟨S100000x64, .f32⟩
  | 90 => ⟨S1x64, .f32⟩
  | 91 => ⟨S100000x64, .f32⟩
  | 92 => ⟨S100000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x64, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x64, .f32⟩
  | 1 => ⟨S1600000x1, .f32⟩
  | 2 => ⟨S1600000, .f32⟩
  | 3 => ⟨S1600000x1, .f32⟩
  | 4 => ⟨S1600000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S8000x1, .f32⟩
  | .local _ .vmem, ⟨15, _⟩ => ⟨S8000x1, .f32⟩
  | .local _ .vmem, ⟨16, _⟩ => ⟨S8000x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S8000x1, .f32⟩
  | .local _ .vmem, ⟨21, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call1_cst : Ref sig .tc := ⟨.hbm, 70, rfl⟩
abbrev main_call1_v0 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_12 : Ref sig .tc := ⟨.hbm, 93, rfl⟩
abbrev main_v70 : Ref sig .tc := ⟨.hbm, 94, rfl⟩
abbrev main_v71 : Ref sig .tc := ⟨.hbm, 95, rfl⟩
abbrev main_c_13 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_14 : Ref sig .tc := ⟨.hbm, 102, rfl⟩
abbrev main_v77 : Ref sig .tc := ⟨.hbm, 103, rfl⟩
abbrev main_v78 : Ref sig .tc := ⟨.hbm, 104, rfl⟩
abbrev main_c_15 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_16 : Ref sig .tc := ⟨.hbm, 111, rfl⟩
abbrev main_v84 : Ref sig .tc := ⟨.hbm, 112, rfl⟩
abbrev main_v85 : Ref sig .tc := ⟨.hbm, 113, rfl⟩
abbrev main_c_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_18 : Ref sig .tc := ⟨.hbm, 120, rfl⟩
abbrev main_v91 : Ref sig .tc := ⟨.hbm, 121, rfl⟩
abbrev main_v92 : Ref sig .tc := ⟨.hbm, 122, rfl⟩
abbrev main_c_19 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S1600000x1_S1600000 : S1600000x1.ShapeCasts S1600000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .f32 = 32 ∨ (Rect.block (s := S1600000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S1600000x1.size a
  hwx2_2 : ∀ i : grid2.Coords, EltTy.bits .f32 = 32 ∨ (Rect.block (s := S1600000x1) S8000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1600000x64.size a
  hwx3_0 : ∀ i : grid3.Coords, EltTy.bits .f32 = 32 ∨ (Rect.block (s := S1600000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S1600000x64.size a
  hwx3_1 : ∀ i : grid3.Coords, EltTy.bits .f32 = 32 ∨ (Rect.block (s := S1600000x64) S8000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x1.size a ≤ S1600000x1.size a
  hwx3_2 : ∀ i : grid3.Coords, EltTy.bits .f32 = 32 ∨ (Rect.block (s := S1600000x1) S8000x1.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v76) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v98) S8000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v90) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v97) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v100) S8000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩

abbrev nBuf : Space → Nat
  | .hbm => 178
  | .vmem => 0
  | .smem => 0
  | _ => 0

abbrev hbmTy0_0 (i : Nat) : BufTy := match i % 128 with
  | 0 => ⟨S100000x128, .f32⟩
  | 1 => ⟨S2x1600000, .i32⟩
  | 2 => ⟨S2x1600000, .i32⟩
  | 3 => ⟨S128x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x128, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S1x1600000, .i32⟩
  | 70 => ⟨S1600000, .i32⟩
  | 71 => ⟨S1x1600000, .i32⟩
  | 72 => ⟨S1600000, .i32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S100000x64, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x1, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S1x1600000, .i32⟩
  | 1 => ⟨S1600000, .i32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x64, .f32⟩
  | 11 => ⟨S1x1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x64, .f32⟩
  | 23 => ⟨S_, .f32⟩
  | 24 => ⟨S1600000, .f32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x64, .f32⟩
  | 36 => ⟨S1x1600000, .i32⟩
  | 37 => ⟨S1600000, .i32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x64, .f32⟩
  | 47 => ⟨S1600000x64, .f32⟩
  | 48 => ⟨S_, .f32⟩
  | 49 => ⟨S1600000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call1_cst : Ref sig .tc := ⟨.hbm, 66, rfl⟩
abbrev main_call1_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_c_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_17 : Ref sig .tc := ⟨.hbm, 109, rfl⟩
abbrev main_v81 : Ref sig .tc := ⟨.hbm, 110, rfl⟩
abbrev main_v82 : Ref sig .tc := ⟨.hbm, 111, rfl⟩
abbrev main_c_18 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_19 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_c_20 : Ref sig .tc := ⟨.hbm, 130, rfl⟩
abbrev main_v99 : Ref sig .tc := ⟨.hbm, 131, rfl⟩
abbrev main_v100 : Ref sig .tc := ⟨.hbm, 132, rfl⟩
abbrev main_c_21 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_c_22 : Ref sig .tc := ⟨.hbm, 141, rfl⟩
abbrev main_v108 : Ref sig .tc := ⟨.hbm, 142, rfl⟩
abbrev main_v109 : Ref sig .tc := ⟨.hbm, 143, rfl⟩
abbrev main_c_23 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_24 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_c_25 : Ref sig .tc := ⟨.hbm, 155, rfl⟩
abbrev main_v119 : Ref sig .tc := ⟨.hbm, 156, rfl⟩
abbrev main_v120 : Ref sig .tc := ⟨.hbm, 157, rfl⟩
abbrev main_c_26 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_c_27 : Ref sig .tc := ⟨.hbm, 166, rfl⟩
abbrev main_v128 : Ref sig .tc := ⟨.hbm, 167, rfl⟩
abbrev main_v129 : Ref sig .tc := ⟨.hbm, 168, rfl⟩
abbrev main_c_28 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_29 : Ref sig .tc := ⟨.hbm, 176, rfl⟩
abbrev main_v136 : Ref sig .tc := ⟨.hbm, 177, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

class Facts : Prop extends Facts₀ where

variable [Facts]
-- ==== Proof.KernelRun.lean ====
/-
  The run of the idealized kernel program with its two result arrays read out.

  @main is twelve segments: stretches of host operations and four kernel regions, in order. The contents of every
  buffer at each boundary is a fold from the launch memory (a stretch: the operations' results one after the other; a
  region: its arrays at what its write-backs leave, every other buffer as entered). Every weakly fair execution of
  @main terminates without a fault, and the final memory holds, at every buffer that outlives the kernels' scratch,
  the last fold's contents. Stated here for the two result buffers and the seven arguments; what the last fold holds
  at the results is computed elsewhere.
-/
import proofs.«147131_j53558242181177_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with both results at the last boundary's
    contents and the arguments as launched. -/
theorem run : θ_run defs (onTc (τ := τ) (main (F := F))) ⟨m, fun _ => 0, ρ⟩ (fun r => ∀ c : Dev nD,
      r.2.mem ((c.tc : Thread nD τ).loc main_v99) = W12 m ρ c (Proc.devRef .tc main_v99)
      ∧ r.2.mem ((c.tc : Thread nD τ).loc main_v101) = W12 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v99 (by decide)),
       h c _ (mem_uc main_v101 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.Whole

end
-- ==== Proof.GcnSpec.lean ====
/-
  Two graph-convolution layers over an edge list with one self-loop per node, and a score per listed pair of nodes,
  written as functions of whole arrays.

  Nodes are numbered 0 … N-1 (N = 100000). An edge list is a [2, E] array of node numbers (E = 1600000): row 0 holds
  the sources, row 1 the targets. Appending the loop n → n for every node n gives lists of E + N = 1700000 ends.
  With deg(n) the number of listed targets equal to n (loops included), D(n) = deg(n)^(-1/2) where deg(n) > 0 and 0
  elsewhere, and c(e) = D(src e) · D(dst e), one layer sends a table h of node rows to

      out[n, :] = (∑ over the ends e with dst e = n of h[src e, :] · c(e)) + bias ,

  the table h being a matrix product (x · W). The first layer is followed by max(·, 0), the second is not; the result z
  holds 64 numbers per node, and the score of a pair (s, t) of node numbers is a function of the rows z[s, :] and
  z[t, :] — in the programs at hand, the sum over the 64 lanes of their products.

  The two matrix products and the score enter as PARAMETERS: everything else is one fixed chain of array operations
  (slices, a concatenation, comparisons and selects on node numbers, gathers, scatter-additions, broadcasts, sums).
  Two programs that run this chain and differ only in how they compute the products and the score therefore compute
  the same arrays as soon as their products and their scores are the same functions.
-/
import proofs.«147131_j53558242181177_1_alg».proof.KernelIdeal

noncomputable section

namespace Cert.Gcn

open Idealize.ShloMosaic Cert.KernelIdeal Cert.KernelIdeal.Facts₀

variable {F : FTy → Type} [FloatOps F] [Cert.KernelIdeal.Facts₀]

/-! ## Node numbers -/

/-- The sources: row 0 of the edge list, as a vector. -/
def srcRow (e : IVec S2x1600000 32) : IVec S1600000 32 :=
  shapeCast S1600000 (extractStridedSlice S1x1600000 ![0, 0] e slices_S2x1600000_S1x1600000_0_0) shapeCasts_S1x1600000_S1600000

/-- The targets: row 1 of the edge list, as a vector. -/
def dstRow (e : IVec S2x1600000 32) : IVec S1600000 32 :=
  shapeCast S1600000 (extractStridedSlice S1x1600000 ![1, 0] e slices_S2x1600000_S1x1600000_1_0) shapeCasts_S1x1600000_S1600000

/-- A list of edge ends followed by every node's own number: the ends of the edges and of the loops. -/
def withLoops (s : IVec S1600000 32) : IVec S1700000 32 :=
  concatenate S1700000 0 [⟨S1600000, s⟩, ⟨S100000, iotaInDim S100000 32 0⟩] concatenates_S1600000_S100000_S1700000_d0

/-- Node numbers as row numbers of a table of N rows, one per list entry, as a column: a negative number counts
    from the end. (For a looped list.) -/
def rowNumbersL (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The same for a list of E ends. -/
def rowNumbersE (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-! ## The coefficient of an end -/

/-- deg: one unit added at every listed target. -/
def degree (d : IVec S1700000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- D: the inverse square root where the degree is positive, zero elsewhere. -/
def invSqrt (g : FVec F S100000 .f32) : FVec F S100000 .f32 :=
  select (cmpf .ogt g (broadcastInDim S100000 ![] bcast_S_S100000 (constant S_ .f32 0x00000000#32)))
    (Host.rsqrt g)
    (broadcastInDim S100000 ![] bcast_S_S100000 (constant S_ .f32 0x00000000#32))

/-- c(e) = D(src e) · D(dst e), for the looped lists of sources s and targets d. -/
def coeff (s d : IVec S1700000 32) : FVec F S1700000 .f32 :=
  mulf (Host.gather gather_S100000_S1700000x1_S1700000_n_0_n_n_0_1_1 (invSqrt (F := F) (degree d)) (rowNumbersL s))
    (Host.gather gather_S100000_S1700000x1_S1700000_n_0_n_n_0_1_1 (invSqrt (F := F) (degree d)) (rowNumbersL d))

/-! ## The layers -/

/-- One aggregation over rows of 128: the rows of h at the sources, each times its end's coefficient, added up at
    the targets, plus the bias row. -/
def aggregate128 (h : FVec F S100000x128 .f32) (s d : IVec S1700000 32) (k : FVec F S1700000 .f32)
    (b : FVec F S128 .f32) : FVec F S100000x128 .f32 :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 d)
      (mulf (Host.gather gather_S100000x128_S1700000x1_S1700000x128_1_0_n_n_0_1_1128 h (rowNumbersL s))
        (broadcastInDim S1700000x128 ![0, 1] bcast_S1700000x1_S1700000x128_0_1
          (broadcastInDim S1700000x1 ![0] bcast_S1700000_S1700000x1_0 k))))
    (broadcastInDim S100000x128 ![0, 1] bcast_S1x128_S100000x128_0_1 (broadcastInDim S1x128 ![1] bcast_S128_S1x128_1 b))

/-- max(·, 0), entry by entry. -/
def rectify (a : FVec F S100000x128 .f32) : FVec F S100000x128 .f32 :=
  maximumf a (broadcastInDim S100000x128 ![] bcast_S_S100000x128 (constant S_ .f32 0x00000000#32))

/-- The same aggregation over rows of 64. -/
def aggregate64 (h : FVec F S100000x64 .f32) (s d : IVec S1700000 32) (k : FVec F S1700000 .f32)
    (b : FVec F S64 .f32) : FVec F S100000x64 .f32 :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 d)
      (mulf (Host.gather gather_S100000x64_S1700000x1_S1700000x64_1_0_n_n_0_1_164 h (rowNumbersL s))
        (broadcastInDim S1700000x64 ![0, 1] bcast_S1700000x1_S1700000x64_0_1
          (broadcastInDim S1700000x1 ![0] bcast_S1700000_S1700000x1_0 k))))
    (broadcastInDim S100000x64 ![0, 1] bcast_S1x64_S100000x64_0_1 (broadcastInDim S1x64 ![1] bcast_S64_S1x64_1 b))

/-- The rows of the table z at the listed nodes. -/
def rowsAt (z : FVec F S100000x64 .f32) (s : IVec S1600000 32) : FVec F S1600000x64 .f32 :=
  Host.gather gather_S100000x64_S1600000x1_S1600000x64_1_0_n_n_0_1_164 z (rowNumbersE s)

/-! ## The whole computation, over given products and a given score -/

/-- The hidden table: the first layer over the product h₁ = x · W₁, rectified. -/
def hidden (h1 : FVec F S100000x128 .f32) (e : IVec S2x1600000 32) (b1 : FVec F S128 .f32) : FVec F S100000x128 .f32 :=
  rectify (aggregate128 h1 (withLoops (srcRow e)) (withLoops (dstRow e))
    (coeff (withLoops (srcRow e)) (withLoops (dstRow e))) b1)

/-- The node table z: the second layer over the product h₂ = hidden · W₂. -/
def nodeTable (h2 : FVec F S100000x64 .f32) (e : IVec S2x1600000 32) (b2 : FVec F S64 .f32) : FVec F S100000x64 .f32 :=
  aggregate64 h2 (withLoops (srcRow e)) (withLoops (dstRow e))
    (coeff (withLoops (srcRow e)) (withLoops (dstRow e))) b2

end Cert.Gcn

end
-- ==== Proof.LibConcatPair.lean ====
/-
  A concatenation of two arrays with each operand as a plain argument, and the fold of a line of host operations read
  through it.

  `concatenate t ax [⟨A, a⟩, ⟨B, b⟩] h` takes its operands inside a list of (shape, contents) pairs; rewriting does not
  reach the contents there. `concat2 t ax A B a b h` is the same array with `a` and `b` as arguments of their own, so a
  rewrite of an operand's contents goes through. `after_results_pairs` reads what one buffer holds after a literal line
  of host operations (the library's one-pass reading of such a line) with every two-operand concatenation first put in
  that form, so that the operands' own contents are read as well; `concat2` unfolds back by `rfl`.
-/
import Idealize.ShloMosaic.Lib.StableHlo.Run

namespace Cert.ConcatPair

open Idealize.ShloMosaic

variable {α : Type}

/-- The concatenation of two arrays along axis `ax` of the result shape `t`. -/
def concat2 (t : Shape) (ax : Fin t.rank) (A B : Shape) (a : A.Idx → α) (b : B.Idx → α)
    (h : Shape.Concatenates [A, B] t ax) : t.Idx → α :=
  concatenate t ax [⟨A, a⟩, ⟨B, b⟩] h

theorem concat2_intro (t : Shape) (ax : Fin t.rank) (A B : Shape) (a : A.Idx → α) (b : B.Idx → α)
    (h : Shape.Concatenates [A, B] t ax) :
    concatenate t ax [⟨A, a⟩, ⟨B, b⟩] h = concat2 t ax A B a b h := rfl

end Cert.ConcatPair

namespace Idealize.ShloMosaic.StableHlo

/-- What one buffer holds after a literal line of host operations, two-operand concatenations included. -/
macro "after_results_pairs" : tactic =>
  `(tactic| (simp (disch := decide) only [Cert.ConcatPair.concat2_intro, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.HostStretches.lean ====
/-
  The stretches of host operations between the kernel regions, read from arbitrary buffer contents.

  Each stretch is a literal line of array operations; what a buffer holds after the line, from contents W, is the
  composition of the operations that lead to it, applied to what W holds at the buffers the line only reads. Written
  out with the named functions of the specification:
    before the first product    the two rows of each edge list, the looped lists of sources and targets, the coefficients;
    after the first product     the first layer, rectified;
    after the second product    the node table, and its rows at the sources and targets of both edge lists;
    after each score region     the [E, 1] column of scores viewed as a vector.
  A buffer the line does not write keeps its contents.
-/
import proofs.«147131_j53558242181177_1_alg».proof.Proof.Gen.KernelIdeal.Launch
import proofs.«147131_j53558242181177_1_alg».proof.Proof.GcnSpec
import proofs.«147131_j53558242181177_1_alg».proof.Proof.LibConcatPair

set_option maxRecDepth 16384

noncomputable section

namespace Cert.KernelIdeal.Stretches

open Idealize.ShloMosaic Idealize.ShloMosaic.StableHlo Cert.KernelIdeal Cert.KernelIdeal.Gen Cert.KernelIdeal.Facts₀ Cert.Gcn

variable {F : FTy → Type} [FloatOps F] [Cert.KernelIdeal.Facts]
variable (W : Valuation τ sig (Elt F))

/-- The first stretch: index preparation and coefficients. -/
abbrev lineA : Valuation τ sig (Elt F) := after hostOps0_2 (after hostOps0_1 (after hostOps0 W))
/-- The second stretch: aggregation of the first product, bias, rectifier. -/
abbrev lineB : Valuation τ sig (Elt F) := after hostOps1_1 (after hostOps1 W)

local macro "read_line" : tactic =>
  `(tactic| (dsimp only [lineA, lineB, hostOps0, hostOps0_1, hostOps0_2, hostOps1, hostOps1_1, hostOps2, hostOps3, hostOps4]; after_results_pairs))

/-! ## Before the first product -/

theorem A_src1 : lineA W (Proc.devRef .tc main_v1) = srcRow (W (Proc.devRef .tc main_arg1)) := by read_line; rfl
theorem A_dst1 : lineA W (Proc.devRef .tc main_v3) = dstRow (W (Proc.devRef .tc main_arg1)) := by read_line; rfl
theorem A_src2 : lineA W (Proc.devRef .tc main_v5) = srcRow (W (Proc.devRef .tc main_arg2)) := by read_line; rfl
theorem A_dst2 : lineA W (Proc.devRef .tc main_v7) = dstRow (W (Proc.devRef .tc main_arg2)) := by read_line; rfl
theorem A_srcL : lineA W (Proc.devRef .tc main_v9) = withLoops (srcRow (W (Proc.devRef .tc main_arg1))) := by read_line; rfl
theorem A_dstL : lineA W (Proc.devRef .tc main_v10) = withLoops (dstRow (W (Proc.devRef .tc main_arg1))) := by read_line; rfl
theorem A_coeff : lineA W (Proc.devRef .tc main_v34)
    = coeff (F := F) (withLoops (srcRow (W (Proc.devRef .tc main_arg1)))) (withLoops (dstRow (W (Proc.devRef .tc main_arg1)))) := by
  read_line; rfl
theorem A_arg0 : lineA W (Proc.devRef .tc main_arg0) = W (Proc.devRef .tc main_arg0) := by read_line
theorem A_arg3 : lineA W (Proc.devRef .tc main_arg3) = W (Proc.devRef .tc main_arg3) := by read_line
theorem A_arg4 : lineA W (Proc.devRef .tc main_arg4) = W (Proc.devRef .tc main_arg4) := by read_line
theorem A_arg5 : lineA W (Proc.devRef .tc main_arg5) = W (Proc.devRef .tc main_arg5) := by read_line
theorem A_arg6 : lineA W (Proc.devRef .tc main_arg6) = W (Proc.devRef .tc main_arg6) := by read_line

/-! ## After the first product -/

theorem B_hidden : lineB W (Proc.devRef .tc main_v52)
    = rectify (aggregate128 (F := F) (W (Proc.devRef .tc main_v35)) (W (Proc.devRef .tc main_v9)) (W (Proc.devRef .tc main_v10))
        (W (Proc.devRef .tc main_v34)) (W (Proc.devRef .tc main_arg4))) := by
  read_line; rfl
theorem B_src1 : lineB W (Proc.devRef .tc main_v1) = W (Proc.devRef .tc main_v1) := by read_line
theorem B_dst1 : lineB W (Proc.devRef .tc main_v3) = W (Proc.devRef .tc main_v3) := by read_line
theorem B_src2 : lineB W (Proc.devRef .tc main_v5) = W (Proc.devRef .tc main_v5) := by read_line
theorem B_dst2 : lineB W (Proc.devRef .tc main_v7) = W (Proc.devRef .tc main_v7) := by read_line
theorem B_srcL : lineB W (Proc.devRef .tc main_v9) = W (Proc.devRef .tc main_v9) := by read_line
theorem B_dstL : lineB W (Proc.devRef .tc main_v10) = W (Proc.devRef .tc main_v10) := by read_line
theorem B_coeff : lineB W (Proc.devRef .tc main_v34) = W (Proc.devRef .tc main_v34) := by read_line
theorem B_arg5 : lineB W (Proc.devRef .tc main_arg5) = W (Proc.devRef .tc main_arg5) := by read_line
theorem B_arg6 : lineB W (Proc.devRef .tc main_arg6) = W (Proc.devRef .tc main_arg6) := by read_line

/-! ## After the second product -/

/-- The node table from what the stretch finds: the second product, the looped lists, the coefficients, the bias. -/
abbrev tableOf : FVec F S100000x64 .f32 :=
  aggregate64 (F := F) (W (Proc.devRef .tc main_v53)) (W (Proc.devRef .tc main_v9)) (W (Proc.devRef .tc main_v10))
    (W (Proc.devRef .tc main_v34)) (W (Proc.devRef .tc main_arg6))

theorem C_rows_src1 : after hostOps2 W (Proc.devRef .tc main_v76) = rowsAt (tableOf W) (W (Proc.devRef .tc main_v1)) := by
  read_line; rfl
theorem C_rows_dst1 : after hostOps2 W (Proc.devRef .tc main_v83) = rowsAt (tableOf W) (W (Proc.devRef .tc main_v3)) := by
  read_line; rfl
theorem C_rows_src2 : after hostOps2 W (Proc.devRef .tc main_v90) = rowsAt (tableOf W) (W (Proc.devRef .tc main_v5)) := by
  read_line; rfl
theorem C_rows_dst2 : after hostOps2 W (Proc.devRef .tc main_v97) = rowsAt (tableOf W) (W (Proc.devRef .tc main_v7)) := by
  read_line; rfl

/-! ## After each score region -/

theorem D_vec : after hostOps3 W (Proc.devRef .tc main_v99)
    = shapeCast S1600000 (W (Proc.devRef .tc main_v98)) Facts₀.shapeCasts_S1600000x1_S1600000 := by
  read_line; rfl
theorem D_rows_src2 : after hostOps3 W (Proc.devRef .tc main_v90) = W (Proc.devRef .tc main_v90) := by read_line
theorem D_rows_dst2 : after hostOps3 W (Proc.devRef .tc main_v97) = W (Proc.devRef .tc main_v97) := by read_line
theorem E_vec : after hostOps4 W (Proc.devRef .tc main_v101)
    = shapeCast S1600000 (W (Proc.devRef .tc main_v100)) Facts₀.shapeCasts_S1600000x1_S1600000 := by
  read_line; rfl
theorem E_keep : after hostOps4 W (Proc.devRef .tc main_v99) = W (Proc.devRef .tc main_v99) := by read_line

end Cert.KernelIdeal.Stretches

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibMatProd.lean ====
/-
  The product of two matrices over the extended reals, entry by entry, and the one law this certificate rests on.

  `prod x w` is the `[a, b]` array whose entry `(p, q)` is `∑ k, x[p, k] · w[k, q]`. Three array programs
  compute it: a matrix product into a zero accumulator whose operands first change float format (a change of
  format is the identity on extended reals), a host `dot_general` with no accumulator, and — the law — a window
  of columns cut out of the product with two weight matrices set side by side:

      (x · [w₁ | w₂])[:, 0:A]   = x · w₁        (x · [w₁ | w₂])[:, A:A+B] = x · w₂ ,

  because entry `(k, q)` of `[w₁ | w₂]` is `w₁[k, q]` for `q < A` and `w₂[k, q - A]` beyond. Each sum is the
  same sum term by term, so nothing is asked of the entries: infinities are welcome.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«147131_j53558242181177_1_alg».proof.Proof.LibRowLayers

noncomputable section

namespace Cert.MatProd

open Idealize.ShloMosaic Idealize.ShloMosaic.ValueIdx Cert.RowLayers

/-- The matrix product entry by entry: `(x · w)[p, q] = ∑ k, x[p, k] · w[k, q]`. -/
def prod {a K b : ℕ} (x : (⟨2, ![a, K]⟩ : Shape).Idx → EReal) (w : (⟨2, ![K, b]⟩ : Shape).Idx → EReal) :
    (⟨2, ![a, b]⟩ : Shape).Idx → EReal :=
  fun i => ∑ k : Fin K, rowOf x (i 0) k * w (ix2 k (i 1))

theorem prod_apply {a K b : ℕ} (x : (⟨2, ![a, K]⟩ : Shape).Idx → EReal) (w : (⟨2, ![K, b]⟩ : Shape).Idx → EReal)
    (p : Fin a) (q : Fin b) : prod x w (ix2 p q) = ∑ k : Fin K, x (ix2 p k) * w (ix2 k q) := rfl

/-! ## The programs that compute it -/

section Programs
variable {a K b : ℕ} {d : DotDims ⟨2, ![a, K]⟩ ⟨2, ![K, b]⟩ ⟨2, ![a, b]⟩} {φ₁ φ₂ : FTy}

/-- The host's product with "rows times columns" dimension numbers is `prod`. -/
theorem dotGeneral_eq_prod (H : RowsTimesCols d) (prec : Option ContractPrecision)
    (x : FVec Ideal ⟨2, ![a, K]⟩ φ₁) (w : FVec Ideal ⟨2, ![K, b]⟩ φ₂) :
    Host.dotGeneral (F := Ideal) d prec x w = prod x w := by
  funext i
  obtain ⟨p, q, rfl⟩ : ∃ (p : Fin a) (q : Fin b), i = ix2 p q := ⟨i 0, i 1, eq_ix2 i⟩
  exact congrFun (rowOf_dotGeneral H prec x w p) q

/-- The device's product into a zero accumulator is `prod`. -/
theorem matmul_zero_eq_prod (H : RowsTimesCols d) (prec : Option ContractPrecision)
    (x : FVec Ideal ⟨2, ![a, K]⟩ φ₁) (w : FVec Ideal ⟨2, ![K, b]⟩ φ₂) :
    matmul d prec x w (constant (F := Ideal) ⟨2, ![a, b]⟩ .f32 0x00000000#32) = prod x w := by
  funext i
  obtain ⟨p, q, rfl⟩ : ∃ (p : Fin a) (q : Fin b), i = ix2 p q := ⟨i 0, i 1, eq_ix2 i⟩
  exact congrFun (rowOf_matmul_zero H prec x w p) q

end Programs

/-! ## A block of rows -/

/-- Entry `(r, q)` of a product reads row `r` of the left factor only: if `x₀` holds the rows of `x` from `r₀` on,
    then `x₀ · w` at `(p, q)` is `x · w` at `(r₀ + p, q)`. -/
theorem prod_of_row_block {a₀ a K b : ℕ} (x : (⟨2, ![a, K]⟩ : Shape).Idx → EReal) (w : (⟨2, ![K, b]⟩ : Shape).Idx → EReal)
    (x₀ : (⟨2, ![a₀, K]⟩ : Shape).Idx → EReal) (r₀ : ℕ)
    (hx₀ : ∀ (y : (⟨2, ![a₀, K]⟩ : Shape).Idx) (z : (⟨2, ![a, K]⟩ : Shape).Idx),
      (z 0).val = r₀ + (y 0).val → (z 1).val = (y 1).val → x₀ y = x z)
    (j : (⟨2, ![a₀, b]⟩ : Shape).Idx) (i : (⟨2, ![a, b]⟩ : Shape).Idx)
    (hi0 : (i 0).val = r₀ + (j 0).val) (hi1 : (i 1).val = (j 1).val) :
    prod x₀ w j = prod x w i := by
  unfold prod
  refine Finset.sum_congr rfl fun k _ => ?_
  have e0 : rowOf x₀ (j 0) k = rowOf x (i 0) k := hx₀ (ix2 (j 0) k) (ix2 (i 0) k) hi0 rfl
  have e1 : (ix2 k (j 1) : (⟨2, ![K, b]⟩ : Shape).Idx) = ix2 k (i 1) := congrArg (ix2 k) (Fin.ext hi1.symm)
  exact congrArg₂ (· * ·) e0 (congrArg w e1)

/-! ## Two weight matrices side by side -/

section SideBySide
variable {K A B C : ℕ}

/-- Left of the seam the joined matrix is the first one. -/
theorem concat_cols_left (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (k : Fin K) (j : Fin C) (hj : j.val < A) :
    concatenate ⟨2, ![K, C]⟩ 1 [⟨⟨2, ![K, A]⟩, w₁⟩, ⟨⟨2, ![K, B]⟩, w₂⟩] hc (ix2 k j) = w₁ (ix2 k ⟨j.val, hj⟩) :=
  (congrFun (rowOf_concat_cols w₁ w₂ hc hC k) j).trans (dif_pos hj)

/-- From the seam on it is the second one. -/
theorem concat_cols_right (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (k : Fin K) (j : Fin C) (hj : ¬ j.val < A) :
    concatenate ⟨2, ![K, C]⟩ 1 [⟨⟨2, ![K, A]⟩, w₁⟩, ⟨⟨2, ![K, B]⟩, w₂⟩] hc (ix2 k j)
      = w₂ (ix2 k ⟨j.val - A, by have := j.isLt; omega⟩) :=
  (congrFun (rowOf_concat_cols w₁ w₂ hc hC k) j).trans (dif_neg hj)

variable {a : ℕ}

/-- THE LAW, left half: the first `A` columns of `x · [w₁ | w₂]` are `x · w₁`. -/
theorem slice_prod_concat_left (x : (⟨2, ![a, K]⟩ : Shape).Idx → EReal)
    (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (hs : (⟨2, ![a, C]⟩ : Shape).Slices ![0, 0] ⟨2, ![a, A]⟩) :
    extractStridedSlice ⟨2, ![a, A]⟩ ![0, 0]
        (prod x (concatenate ⟨2, ![K, C]⟩ 1 [⟨⟨2, ![K, A]⟩, w₁⟩, ⟨⟨2, ![K, B]⟩, w₂⟩] hc)) hs
      = prod x w₁ := by
  funext i
  obtain ⟨p, q, rfl⟩ : ∃ (p : Fin a) (q : Fin A), i = ix2 p q := ⟨i 0, i 1, eq_ix2 i⟩
  rw [slice2_axis1_eq]
  refine Finset.sum_congr rfl fun k _ => congrArg (rowOf x p k * ·) ?_
  refine (concat_cols_left w₁ w₂ hc hC k _ (by show 0 + q.val < A; have := q.isLt; omega)).trans ?_
  exact congrArg (fun z => w₁ (ix2 k z)) (Fin.ext (Nat.zero_add q.val))

/-- THE LAW, right half: the next `B` columns of `x · [w₁ | w₂]` are `x · w₂`. -/
theorem slice_prod_concat_right (x : (⟨2, ![a, K]⟩ : Shape).Idx → EReal)
    (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (hs : (⟨2, ![a, C]⟩ : Shape).Slices ![0, A] ⟨2, ![a, B]⟩) :
    extractStridedSlice ⟨2, ![a, B]⟩ ![0, A]
        (prod x (concatenate ⟨2, ![K, C]⟩ 1 [⟨⟨2, ![K, A]⟩, w₁⟩, ⟨⟨2, ![K, B]⟩, w₂⟩] hc)) hs
      = prod x w₂ := by
  funext i
  obtain ⟨p, q, rfl⟩ : ∃ (p : Fin a) (q : Fin B), i = ix2 p q := ⟨i 0, i 1, eq_ix2 i⟩
  rw [slice2_axis1_eq]
  refine Finset.sum_congr rfl fun k _ => congrArg (rowOf x p k * ·) ?_
  refine (concat_cols_right w₁ w₂ hc hC k _ (by show ¬ A + q.val < A; omega)).trans ?_
  exact congrArg (fun z => w₂ (ix2 k z)) (Fin.ext (by show A + q.val - A = q.val; omega))

end SideBySide

end Cert.MatProd

end
-- ==== Proof.LibRowDots.lean ====
/-
  Row-by-row dot products of two matrices over the extended reals.

  For two `[n, K]` arrays `a` and `b`, `rowDots a b` is the `[n]` array whose entry `p` is
  `∑ k, a[p, k] · b[p, k]`: the dot product of row `p` of `a` with row `p` of `b`. Two array programs
  compute it. The device multiplies the arrays entry by entry, sums each row over its `K` lanes into a zero
  accumulator, and stores the sums as an `[n, 1]` column; the host multiplies entry by entry and reduces over
  axis 1 from the initial value zero. Both read, at row `p`, the same sum term by term, so nothing is asked
  of the entries: infinities are welcome. Then the sums as an `[n, 1]` column (`rowDotsColumn`), which viewed as an
  `[n]` vector is `rowDots` again, and the sums on a block of rows: the dot product at row `p` reads row `p` of
  each factor only, so `rowDots` of the rows from `r₀` on, at `p`, is `rowDots` of the whole arrays at `r₀ + p`.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

namespace Cert.RowDots

open Idealize.ShloMosaic Idealize.ShloMosaic.ValueIdx

/-- The dot product of each row of `a` with the same row of `b`: entry `p` is `∑ k, a[p, k] · b[p, k]`. -/
def rowDots {n K : ℕ} (a b : (⟨2, ![n, K]⟩ : Shape).Idx → EReal) : (⟨1, ![n]⟩ : Shape).Idx → EReal :=
  fun i => ∑ k : Fin K, a (ValueIdx.ix2 (i 0) k) * b (ValueIdx.ix2 (i 0) k)

/-- `rowDots` at row `p`. -/
theorem rowDots_apply {n K : ℕ} (a b : (⟨2, ![n, K]⟩ : Shape).Idx → EReal) (p : Fin n) :
    rowDots a b (ix1 p) = ∑ k : Fin K, a (ix2 p k) * b (ix2 p k) := rfl

/-- Over an `[n, K]` array reduced along axis 1, the source index above row `p` with lane `k` inserted is `(p, k)`. -/
theorem lift_axis1 {n K : ℕ} (hr : (⟨2, ![n, K]⟩ : Shape).Reduces [1] ⟨1, ![n]⟩) (p : Fin n) (k : Fin K) :
    hr.lift (ix1 p) k = ix2 p k := by
  funext c
  apply Fin.ext
  match c with
  | ⟨0, _⟩ => rfl
  | ⟨1, _⟩ => rfl

/-- The sum of the entry-by-entry product over the lanes of each row, at row `p`, is the rows' dot product. -/
theorem multiReduction_mulf_apply {n K : ℕ} (a b : FVec Ideal ⟨2, ![n, K]⟩ .f32)
    (hr : (⟨2, ![n, K]⟩ : Shape).Reduces [1] ⟨1, ![n]⟩) (hφ : FKind.Formats .f32)
    (hacc : (0x00000000#32 : BitVec 32) = FKind.add.neutral .f32 hφ) (p : Fin n) :
    multiReduction (F := Ideal) .add [1] ⟨1, ![n]⟩ (mulf a b) 0x00000000#32 hr hφ hacc (ix1 p) = rowDots a b (ix1 p) := by
  refine (Ideal.multiReduction_add_single (mulf a b) 0x00000000#32 hr hφ hacc (ix1 p)).trans ?_
  refine Finset.sum_congr rfl fun k _ => ?_
  rw [lift_axis1 hr p k]
  rfl

/-- An `[n]` vector stored as an `[n, 1]` column reads, at `(p, u)`, the vector at `p`. -/
theorem shapeCast_column_apply {α : Type} {n : ℕ} (v : (⟨1, ![n]⟩ : Shape).Idx → α)
    (hc : (⟨1, ![n]⟩ : Shape).ShapeCasts ⟨2, ![n, 1]⟩) (p : Fin n) (u : Fin 1) :
    shapeCast ⟨2, ![n, 1]⟩ v hc (ix2 p u) = v (ix1 p) := by
  refine shapeCast_apply v hc (ix2 p u) (ix1 p) ?_
  rw [Shape.rowMajor_val_two, Shape.rowMajor_val_one]
  show p.val = p.val * 1 + u.val
  have := u.isLt
  omega

/-- THE DEVICE'S SPELLING: the entry-by-entry product summed over the lanes of each row into a zero accumulator and
    stored as an `[n, 1]` column reads, at `(p, u)`, the dot product of row `p` of `a` with row `p` of `b`. -/
theorem shapeCast_multiReduction_mulf_apply {n K : ℕ} (a b : FVec Ideal ⟨2, ![n, K]⟩ .f32)
    (hr : (⟨2, ![n, K]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (p : Fin n) (u : Fin 1) :
    shapeCast ⟨2, ![n, 1]⟩ (multiReduction (F := Ideal) .add [1] ⟨1, ![n]⟩ (mulf a b) 0x00000000#32 hr hφ hacc) hc (ix2 p u)
      = rowDots a b (ix1 p) :=
  (shapeCast_column_apply _ hc p u).trans (multiReduction_mulf_apply a b hr hφ hacc p)

/-- THE HOST'S SPELLING: the entry-by-entry product reduced over axis 1 with `add` from the initial value zero is
    `rowDots`, whatever the proofs of the two side conditions. -/
theorem hostReduceAdd_mulf_eq {n K : ℕ} (a b : FVec Ideal ⟨2, ![n, K]⟩ .f32)
    (h : (⟨2, ![n, K]⟩ : Shape).ReducesTo [1] ⟨1, ![n]⟩) (hu : 0 < (⟨0, ![]⟩ : Shape).numel) :
    Host.reduceAdd (F := Ideal) (mulf a b) (constant (F := Ideal) (⟨0, ![]⟩ : Shape) .f32 0x00000000#32) h hu = rowDots a b := by
  funext j
  obtain ⟨p, rfl⟩ : ∃ p : Fin n, j = ix1 p := ⟨j 0, eq_ix1 j⟩
  have hr : (⟨2, ![n, K]⟩ : Shape).Reduces [1] ⟨1, ![n]⟩ := ⟨h.1, Nat.one_pos, h.2⟩
  refine (hostReduceAdd_apply (mulf a b) _ h hu (ix1 p)).trans ?_
  rw [Ideal.hostReduceAdd_single h hr]
  show Ideal.ofBits .f32 0x00000000#32 + _ = _
  rw [Ideal.ofBits_zero_f32, zero_add]
  refine Finset.sum_congr rfl fun k _ => ?_
  rw [lift_axis1 hr p k]
  rfl

/-- An `[n, 1]` column viewed as an `[n]` vector reads, at `i`, the column at `(i 0, 0)`. -/
theorem shapeCast_of_column_apply {α : Type} {n : ℕ} (c : (⟨2, ![n, 1]⟩ : Shape).Idx → α)
    (hc : (⟨2, ![n, 1]⟩ : Shape).ShapeCasts ⟨1, ![n]⟩) (i : (⟨1, ![n]⟩ : Shape).Idx) :
    shapeCast ⟨1, ![n]⟩ c hc i = c (ix2 (i 0) (0 : Fin 1)) := by
  refine shapeCast_apply c hc i (ix2 (i 0) (0 : Fin 1)) ?_
  rw [Shape.rowMajor_val_two, Shape.rowMajor_val_one]
  show (i 0).val * 1 + 0 = (i 0).val
  omega

/-! ## The dot products as a column, and on a block of rows -/

/-- The rows' dot products stored as an `[n, 1]` column: entry `(p, 0)` is `rowDots a b` at `p`. -/
def rowDotsColumn {n K : ℕ} (a b : (⟨2, ![n, K]⟩ : Shape).Idx → EReal) : (⟨2, ![n, 1]⟩ : Shape).Idx → EReal :=
  fun i => rowDots a b (ix1 (i 0))

/-- The column at `(p, u)`. -/
theorem rowDotsColumn_apply {n K : ℕ} (a b : (⟨2, ![n, K]⟩ : Shape).Idx → EReal) (p : Fin n) (u : Fin 1) :
    rowDotsColumn a b (ix2 p u) = rowDots a b (ix1 p) := rfl

/-- The column viewed as an `[n]` vector is `rowDots`. -/
theorem shapeCast_rowDotsColumn {n K : ℕ} (a b : (⟨2, ![n, K]⟩ : Shape).Idx → EReal)
    (hc : (⟨2, ![n, 1]⟩ : Shape).ShapeCasts ⟨1, ![n]⟩) :
    shapeCast ⟨1, ![n]⟩ (rowDotsColumn a b) hc = rowDots a b := by
  funext i
  refine (shapeCast_of_column_apply (rowDotsColumn a b) hc i).trans ?_
  exact congrArg (rowDots a b) (eq_ix1 i).symm

/-- A row's dot product reads that row of each factor only: if `a₀` and `b₀` hold the rows of `a` and `b` from
    `r₀` on, then `rowDots a₀ b₀` at `p` is `rowDots a b` at `r₀ + p`. -/
theorem rowDots_of_row_block {n₀ n K : ℕ} (a b : (⟨2, ![n, K]⟩ : Shape).Idx → EReal)
    (a₀ b₀ : (⟨2, ![n₀, K]⟩ : Shape).Idx → EReal) (r₀ : ℕ)
    (ha : ∀ (y : (⟨2, ![n₀, K]⟩ : Shape).Idx) (z : (⟨2, ![n, K]⟩ : Shape).Idx),
      (z 0).val = r₀ + (y 0).val → (z 1).val = (y 1).val → a₀ y = a z)
    (hb : ∀ (y : (⟨2, ![n₀, K]⟩ : Shape).Idx) (z : (⟨2, ![n, K]⟩ : Shape).Idx),
      (z 0).val = r₀ + (y 0).val → (z 1).val = (y 1).val → b₀ y = b z)
    (p : Fin n₀) (q : Fin n) (hq : q.val = r₀ + p.val) :
    rowDots a₀ b₀ (ix1 p) = rowDots a b (ix1 q) := by
  unfold rowDots
  refine Finset.sum_congr rfl fun k _ => ?_
  exact congrArg₂ (· * ·) (ha (ix2 p k) (ix2 q k) hq rfl) (hb (ix2 p k) (ix2 q k) hq rfl)

end Cert.RowDots

end
-- ==== Proof.GcnIdeal.lean ====
/-
  The computation over the extended reals: what both programs' results are, as functions of the argument arrays.

  With the matrix product taken entry by entry, (x · w)[p, q] = ∑ k, x[p, k] · w[k, q], the node table is the second
  layer over (hidden · W₂), the hidden table the rectified first layer over (x · W₁); and the score of a listed pair
  (s, t) is ∑ over the 64 lanes j of z[s, j] · z[t, j].
-/
import proofs.«147131_j53558242181177_1_alg».proof.Proof.GcnSpec
import proofs.«147131_j53558242181177_1_alg».proof.Proof.LibMatProd
import proofs.«147131_j53558242181177_1_alg».proof.Proof.LibRowDots

noncomputable section

namespace Cert.Gcn

open Idealize.ShloMosaic Cert.KernelIdeal Cert.MatProd Cert.RowDots

variable [Cert.KernelIdeal.Facts₀]

/-- The node table: both layers, each over the entry-by-entry matrix product. -/
def table (x : FVec Ideal S100000x128 .f32) (e : IVec S2x1600000 32) (w1 : FVec Ideal S128x128 .f32) (b1 : FVec Ideal S128 .f32)
    (w2 : FVec Ideal S128x64 .f32) (b2 : FVec Ideal S64 .f32) : FVec Ideal S100000x64 .f32 :=
  nodeTable (F := Ideal) (prod (hidden (F := Ideal) (prod x w1) e b1) w2) e b2

/-- The scores of the pairs listed in p: the lane sums of the products of the two rows of the table. -/
def scores (z : FVec Ideal S100000x64 .f32) (p : IVec S2x1600000 32) : FVec Ideal S1600000 .f32 :=
  rowDots (rowsAt (F := Ideal) z (srcRow p)) (rowsAt (F := Ideal) z (dstRow p))

end Cert.Gcn

end
-- ==== Proof.ProductRegions.lean ====
/-
  The two tiled matrix products of the program, each read as ONE matrix product of whole arrays.

  A product region walks a grid of 10 points. Point `t` takes rows `[10000 t, 10000 t + 10000)` of the
  `[100000, 128]` left operand, the whole right operand (`[128, 128]` in the first region, `[128, 64]` in the
  second), multiplies them into a zero accumulator, and stores the result as the same rows of the output.
  Entry `(r, q)` of a matrix product reads row `r` of the left factor only, so the block that point `t` stores is
  rows `[10000 t, 10000 t + 10000)` of the product of the WHOLE arrays; the ten blocks tile the output (row `r`
  lies in the block of point `r / 10000`), so after the region the output array is that product, entry by entry,
  whatever the arrays held when the region was entered.
-/
import proofs.«147131_j53558242181177_1_alg».proof.Proof.Gen.KernelIdeal.Frame
import proofs.«147131_j53558242181177_1_alg».proof.Proof.LibMatProd
import Idealize.ShloMosaic.Lib.Pipeline.Value

noncomputable section

namespace Cert.KernelIdeal.ProductRegions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access, however spelt. -/
theorem hz : (![0, 0] : Fin 2 → Nat) = fun _ => 0 := funext fun a => by fin_cases a <;> rfl

/-! ## The first product: `[100000, 128] × [128, 128]` -/

/-- The printed dimension numbers of the first product say "rows times columns": one contracted axis of extent 128,
    the left operand read at (output row, contracted position), the right at (contracted position, output column). -/
theorem rowsTimesCols0 : Cert.RowLayers.RowsTimesCols dot_S10000x128_S128x128_S10000x128_1_0_0_1_n_n where
  rank := rfl
  size := rfl
  lhs0 := fun _ _ => rfl
  lhs1 := fun _ _ => rfl
  rhs0 := fun _ _ => rfl
  rhs1 := fun _ _ => rfl

/-- What a point stores is the product of its two loaded blocks (a change of float format is the identity on
    extended reals, and the accumulator is zero). -/
theorem pay0_eq (x0 : Vec Ideal S10000x128 .f32) (x1 : Vec Ideal S128x128 .f32) :
    k0_pay1 (F := Ideal) x0 x1 = Cert.MatProd.prod x0 x1 := by
  unfold k0_pay1
  exact Cert.MatProd.matmul_zero_eq_prod rowsTimesCols0 none (truncf .bf16 x0 bitsLt_bf16_f32) (truncf .bf16 x1 bitsLt_bf16_f32)

/-- The printed index maps, decided over the grid: the left operand's and the output's block index is `(t, 0)`,
    the right operand's is `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `10000 t …` of the array: entry `y` of the block is entry
    `(10000 t + y 0, y 1)` of the array as the region finds it. -/
theorem lhs_block0 (c : Dev nD) (t : Fin cfg0.N) (y : S10000x128.Idx) (z : S100000x128.Idx)
    (h0 : (z 0).val = 10000 * t.val + (y 0).val) (h1 : (z 1).val = (y 1).val) :
    (iblk0 V c 0 t : Vec Ideal S10000x128 .f32) y = (V c main_arg0 : S100000x128.Idx → EReal) z := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * (y 0).val = (z 0).val; rw [e0, h0]; omega
  | ⟨1, _⟩ => show win0_0.index t (1 : Fin 2) * 128 + 1 * (y 1).val = (z 1).val; rw [e1, h1]; omega

/-- The right operand's block at every point is the whole array. -/
theorem rhs_block0 (c : Dev nD) (t : Fin cfg0.N) :
    (iblk0 V c 1 t : Vec Ideal S128x128 .f32) = (V c main_arg3 : S128x128.Idx → EReal) := by
  obtain ⟨-, -, e0, e1, -⟩ := idx_facts0 t
  funext y
  unfold iblk0
  rw [View.read_apply]
  show V c main_arg3 _ = V c main_arg3 y
  refine congrArg (V c main_arg3) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- WHAT POINT `t` WRITES BACK is block `t` of the product of the whole arrays as the region finds them. -/
theorem flushed0_eq (c : Dev nD) (t : Fin cfg0.N) :
    (dat0 (F := Ideal) V c).flushed 2 t = ((cfg0.win 2).blk t).view.read (Elt Ideal)
      (Cert.MatProd.prod (V c main_arg0 : S100000x128.Idx → EReal) (V c main_arg3 : S128x128.Idx → EReal)) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x128) hz]
  obtain ⟨-, -, -, -, e0, e1⟩ := idx_facts0 t
  funext j
  show k0_pay1 (F := Ideal) (iblk0 V c 0 t) (iblk0 V c 1 t) j
    = Cert.MatProd.prod (V c main_arg0 : S100000x128.Idx → EReal) (V c main_arg3 : S128x128.Idx → EReal) (((cfg0.win 2).blk t).view.emb j)
  refine (congrFun (pay0_eq (iblk0 V c 0 t) (iblk0 V c 1 t)) j).trans ?_
  refine (congrFun (congrArg (Cert.MatProd.prod (iblk0 V c 0 t : Vec Ideal S10000x128 .f32)) (rhs_block0 V c t)) j).trans ?_
  refine Cert.MatProd.prod_of_row_block (V c main_arg0 : S100000x128.Idx → EReal) (V c main_arg3 : S128x128.Idx → EReal)
    (iblk0 V c 0 t : Vec Ideal S10000x128 .f32) (10000 * t.val) (fun y z h0 h1 => lhs_block0 V c t y z h0 h1) j _ ?_ ?_
  · show win0_2.index t (0 : Fin 2) * 10000 + 1 * (j 0).val = 10000 * t.val + (j 0).val; rw [e0]; omega
  · show win0_2.index t (1 : Fin 2) * 128 + 1 * (j 1).val = (j 1).val; rw [e1]; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v35).slice (win0_2.rect t)).set ↔ _
  rw [View.set_slice_whole, Rect.mem_set_unit]
  exact Iff.rfl

/-- Every index of the output lies in the block of the point `row / 10000`, which writes back. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, -, -, e0, e1⟩ := idx_facts0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e0, ht]; omega
  | ⟨1, _⟩ => show win0_2.index t (1 : Fin 2) * 128 ≤ (i 1).val ∧ (i 1).val < win0_2.index t (1 : Fin 2) * 128 + 128; rw [e1]; omega

/-- THE FIRST PRODUCT: after the region the whole output array is the entry-by-entry matrix product of the two input
    arrays as the region finds them. -/
theorem product0 (c : Dev nD) :
    (dat0 (F := Ideal) V c).arrAt 2 cfg0.N
      = Cert.MatProd.prod (V c main_arg0 : S100000x128.Idx → EReal) (V c main_arg3 : S128x128.Idx → EReal) :=
  (dat0 (F := Ideal) V c).arrAt_eq_of_cover 2
    (Cert.MatProd.prod (V c main_arg0 : S100000x128.Idx → EReal) (V c main_arg3 : S128x128.Idx → EReal))
    (fun t _ => flushed0_eq V c t) cover0

/-! ## The second product: `[100000, 128] × [128, 64]` -/

/-- The printed dimension numbers of the second product say "rows times columns" too. -/
theorem rowsTimesCols1 : Cert.RowLayers.RowsTimesCols dot_S10000x128_S128x64_S10000x64_1_0_0_1_n_n where
  rank := rfl
  size := rfl
  lhs0 := fun _ _ => rfl
  lhs1 := fun _ _ => rfl
  rhs0 := fun _ _ => rfl
  rhs1 := fun _ _ => rfl

/-- What a point stores is the product of its two loaded blocks (the left one first cast to its own shape). -/
theorem pay1_eq (x0 : Vec Ideal S10000x128 .f32) (x1 : Vec Ideal S128x64 .f32) :
    k1_pay1 (F := Ideal) x0 x1 = Cert.MatProd.prod x0 x1 := by
  unfold k1_pay1
  refine (Cert.MatProd.matmul_zero_eq_prod rowsTimesCols1 none
    (truncf .bf16 (shapeCast S10000x128 x0 shapeCasts_S10000x128_S10000x128) bitsLt_bf16_f32) (truncf .bf16 x1 bitsLt_bf16_f32)).trans ?_
  exact congrArg (fun x => Cert.MatProd.prod (a := 10000) (K := 128) (b := 64) x x1) (shapeCast_self x0 shapeCasts_S10000x128_S10000x128)

/-- The printed index maps, decided over the grid: the left operand's and the output's block index is `(t, 0)`,
    the right operand's is `(0, 0)`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `10000 t …` of the array: entry `y` of the block is entry
    `(10000 t + y 0, y 1)` of the array as the region finds it. -/
theorem lhs_block1 (c : Dev nD) (t : Fin cfg1.N) (y : S10000x128.Idx) (z : S100000x128.Idx)
    (h0 : (z 0).val = 10000 * t.val + (y 0).val) (h1 : (z 1).val = (y 1).val) :
    (iblk1 V c 0 t : Vec Ideal S10000x128 .f32) y = (V c main_v52 : S100000x128.Idx → EReal) z := by
  obtain ⟨e0, e1, -⟩ := idx_facts1 t
  unfold iblk1
  rw [View.read_apply]
  show V c main_v52 _ = V c main_v52 _
  refine congrArg (V c main_v52) (funext fun a => Fin.ext ?_)
  match a with
  | ⟨0, _⟩ => show win1_0.index t (0 : Fin 2) * 10000 + 1 * (y 0).val = (z 0).val; rw [e0, h0]; omega
  | ⟨1, _⟩ => show win1_0.index t (1 : Fin 2) * 128 + 1 * (y 1).val = (z 1).val; rw [e1, h1]; omega

/-- The right operand's block at every point is the whole array. -/
theorem rhs_block1 (c : Dev nD) (t : Fin cfg1.N) :
    (iblk1 V c 1 t : Vec Ideal S128x64 .f32) = (V c main_arg5 : S128x64.Idx → EReal) := by
  obtain ⟨-, -, e0, e1, -⟩ := idx_facts1 t
  funext y
  unfold iblk1
  rw [View.read_apply]
  show V c main_arg5 _ = V c main_arg5 y
  refine congrArg (V c main_arg5) (funext fun a => Fin.ext ?_)
  match a with
  | ⟨0, _⟩ => show win1_1.index t (0 : Fin 2) * 128 + 1 * (y 0).val = (y 0).val; rw [e0]; omega
  | ⟨1, _⟩ => show win1_1.index t (1 : Fin 2) * 64 + 1 * (y 1).val = (y 1).val; rw [e1]; omega

/-- WHAT POINT `t` WRITES BACK is block `t` of the product of the whole arrays as the region finds them. -/
theorem flushed1_eq (c : Dev nD) (t : Fin cfg1.N) :
    (dat1 (F := Ideal) V c).flushed 2 t = ((cfg1.win 2).blk t).view.read (Elt Ideal)
      (Cert.MatProd.prod (V c main_v52 : S100000x128.Idx → EReal) (V c main_arg5 : S128x64.Idx → EReal)) := by
  show (cfg1.win 2).cut (grid1.coords t) ((dat1 (F := Ideal) V c).after 2 t) = _
  rw [after1_2]
  unfold out1_2
  rw [View.canon_unit_zero hz]
  simp only [View.ld_unit_zero (S := S10000x128) hz, View.ld_unit_zero (S := S128x64) hz]
  obtain ⟨-, -, -, -, e0, e1⟩ := idx_facts1 t
  funext j
  show k1_pay1 (F := Ideal) (iblk1 V c 0 t) (iblk1 V c 1 t) j
    = Cert.MatProd.prod (V c main_v52 : S100000x128.Idx → EReal) (V c main_arg5 : S128x64.Idx → EReal) (((cfg1.win 2).blk t).view.emb j)
  refine (congrFun (pay1_eq (iblk1 V c 0 t) (iblk1 V c 1 t)) j).trans ?_
  refine (congrFun (congrArg (Cert.MatProd.prod (iblk1 V c 0 t : Vec Ideal S10000x128 .f32)) (rhs_block1 V c t)) j).trans ?_
  refine Cert.MatProd.prod_of_row_block (V c main_v52 : S100000x128.Idx → EReal) (V c main_arg5 : S128x64.Idx → EReal)
    (iblk1 V c 0 t : Vec Ideal S10000x128 .f32) (10000 * t.val) (fun y z h0 h1 => lhs_block1 V c t y z h0 h1) j _ ?_ ?_
  · show win1_2.index t (0 : Fin 2) * 10000 + 1 * (j 0).val = 10000 * t.val + (j 0).val; rw [e0]; omega
  · show win1_2.index t (1 : Fin 2) * 64 + 1 * (j 1).val = (j 1).val; rw [e1]; omega

/-- An index of the output array is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v53).slice (win1_2.rect t)).set ↔ _
  rw [View.set_slice_whole, Rect.mem_set_unit]
  exact Iff.rfl

/-- Every index of the output lies in the block of the point `row / 10000`, which writes back. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, e0, e1⟩ := idx_facts1 t
  have ht : t.val = (i 0).val / 10000 := rfl
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; rw [e0, ht]; omega
  | ⟨1, _⟩ => show win1_2.index t (1 : Fin 2) * 64 ≤ (i 1).val ∧ (i 1).val < win1_2.index t (1 : Fin 2) * 64 + 64; rw [e1]; omega

/-- THE SECOND PRODUCT: after the region the whole output array is the entry-by-entry matrix product of the two input
    arrays as the region finds them. -/
theorem product1 (c : Dev nD) :
    (dat1 (F := Ideal) V c).arrAt 2 cfg1.N
      = Cert.MatProd.prod (V c main_v52 : S100000x128.Idx → EReal) (V c main_arg5 : S128x64.Idx → EReal) :=
  (dat1 (F := Ideal) V c).arrAt_eq_of_cover 2
    (Cert.MatProd.prod (V c main_v52 : S100000x128.Idx → EReal) (V c main_arg5 : S128x64.Idx → EReal))
    (fun t _ => flushed1_eq V c t) cover1

end Cert.KernelIdeal.ProductRegions

end
-- ==== Proof.ScoreRegions.lean ====
/-
  The two row-by-row dot-product regions of the program, each read as ONE function of whole arrays.

  A score region walks a grid of 200 points. Point `t` takes rows `[8000 t, 8000 t + 8000)` of two
  `[1600000, 64]` operands, multiplies them entry by entry, sums each row over its 64 lanes into a zero
  accumulator, and stores the 8000 sums as rows `[8000 t, 8000 t + 8000)` of the `[1600000, 1]` output. The sum
  for row `r` reads row `r` of each operand only, so the block that point `t` stores is rows
  `[8000 t, 8000 t + 8000)` of the column of ALL the rows' dot products; the 200 blocks tile the output (row `r`
  lies in the block of point `r / 8000`), so after the region the output, viewed as a `[1600000]` vector, holds
  at `r` the dot product of row `r` of the first operand with row `r` of the second, whatever the arrays held when
  the region was entered.
-/
import proofs.«147131_j53558242181177_1_alg».proof.Proof.Gen.KernelIdeal.Frame
import proofs.«147131_j53558242181177_1_alg».proof.Proof.LibRowDots
import Idealize.ShloMosaic.Lib.Pipeline.Value

noncomputable section

namespace Cert.KernelIdeal.ScoreRegions

open Cert.KernelIdeal Cert.KernelIdeal.Gen Idealize.ShloMosaic Idealize.ShloMosaic.TcCoe Idealize.SL.Sem
open Idealize.ShloMosaic.Pipeline (Dat)
open Idealize.ShloMosaic.ValueIdx
open Cert.RowDots

variable (V : (c : Dev nD) → (b : Ref sig .tc) → Buf (Elt Ideal) ((c : Thread nD τ).loc b))

/-- The zero offsets of a whole-block access, however spelt. -/
theorem hz : (![0, 0] : Fin 2 → Nat) = fun _ => 0 := funext fun a => by fin_cases a <;> rfl

/-! ## The first score region -/

/-- What a point stores, at `(p, u)`: the dot product of row `p` of its first loaded block with row `p` of its second
    (each block first cast to its own shape, the lane sum into a zero accumulator, the sums stored as a column). -/
theorem pay2_apply (x0 x1 : Vec Ideal S8000x64 .f32) (p : Fin 8000) (u : Fin 1) :
    k2_pay1 (F := Ideal) x0 x1 (ix2 p u) = rowDots x0 x1 (ix1 p) := by
  unfold k2_pay1
  refine (shapeCast_multiReduction_mulf_apply (shapeCast S8000x64 x0 shapeCasts_S8000x64_S8000x64)
    (shapeCast S8000x64 x1 shapeCasts_S8000x64_S8000x64) reduces_S8000x64_S8000 (.inl rfl) rfl shapeCasts_S8000_S8000x1 p u).trans ?_
  exact congrArg₂ (fun x y => rowDots (n := 8000) (K := 64) x y (ix1 p))
    (shapeCast_self x0 shapeCasts_S8000x64_S8000x64) (shapeCast_self x1 shapeCasts_S8000x64_S8000x64)

/-- The same at any index of the stored block. -/
theorem pay2_at (x0 x1 : Vec Ideal S8000x64 .f32) (j : S8000x1.Idx) :
    k2_pay1 (F := Ideal) x0 x1 j = rowDots x0 x1 (ix1 (j 0)) := by
  obtain ⟨p, u, rfl⟩ : ∃ (p : Fin 8000) (u : Fin 1), j = ix2 p u := ⟨j 0, j 1, eq_ix2 j⟩
  exact pay2_apply x0 x1 p u

/-- The printed index maps, decided over the grid: every window's block index is `(t, 0)`. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The first operand's block at point `t` is rows `8000 t …` of the array: entry `y` of the block is entry
    `(8000 t + y 0, y 1)` of the array as the region finds it. -/
theorem fst_block2 (c : Dev nD) (t : Fin cfg2.N) (y : S8000x64.Idx) (z : S1600000x64.Idx)
    (h0 : (z 0).val = 8000 * t.val + (y 0).val) (h1 : (z 1).val = (y 1).val) :
    (iblk2 V c 0 t : Vec Ideal S8000x64 .f32) y = (V c main_v76 : S1600000x64.Idx → EReal) z := by
  obtain ⟨e0, e1, -⟩ := idx_facts2 t
  unfold iblk2
  rw [View.read_apply]
  show V c main_v76 _ = V c main_v76 _
  refine congrArg (V c main_v76) (funext fun a => Fin.ext ?_)
  match a with
  | ⟨0, _⟩ => show win2_0.index t (0 : Fin 2) * 8000 + 1 * (y 0).val = (z 0).val; rw [e0, h0]; omega
  | ⟨1, _⟩ => show win2_0.index t (1 : Fin 2) * 64 + 1 * (y 1).val = (z 1).val; rw [e1, h1]; omega

/-- The second operand's block at point `t` likewise. -/
theorem snd_block2 (c : Dev nD) (t : Fin cfg2.N) (y : S8000x64.Idx) (z : S1600000x64.Idx)
    (h0 : (z 0).val = 8000 * t.val + (y 0).val) (h1 : (z 1).val = (y 1).val) :
    (iblk2 V c 1 t : Vec Ideal S8000x64 .f32) y = (V c main_v83 : S1600000x64.Idx → EReal) z := by
  obtain ⟨-, -, e0, e1, -⟩ := idx_facts2 t
  unfold iblk2
  rw [View.read_apply]
  show V c main_v83 _ = V c main_v83 _
  refine congrArg (V c main_v83) (funext fun a => Fin.ext ?_)
  match a with
  | ⟨0, _⟩ => show win2_1.index t (0 : Fin 2) * 8000 + 1 * (y 0).val = (z 0).val; rw [e0, h0]; omega
  | ⟨1, _⟩ => show win2_1.index t (1 : Fin 2) * 64 + 1 * (y 1).val = (z 1).val; rw [e1, h1]; omega

/-- WHAT POINT `t` WRITES BACK is block `t` of the column of the rows' dot products of the whole arrays as the
    region finds them. -/
theorem flushed2_eq (c : Dev nD) (t : Fin cfg2.N) :
    (dat2 (F := Ideal) V c).flushed 2 t = ((cfg2.win 2).blk t).view.read (Elt Ideal)
      (rowDotsColumn (V c main_v76 : S1600000x64.Idx → EReal) (V c main_v83 : S1600000x64.Idx → EReal)) := by
  show (cfg2.win 2).cut (grid2.coords t) ((dat2 (F := Ideal) V c).after 2 t) = _
  rw [after2_2]
  unfold out2_2
  rw [View.canon_unit_zero hz]
  simp only [View.ld_unit_zero (S := S8000x64) hz]
  obtain ⟨-, -, -, -, e0, e1⟩ := idx_facts2 t
  funext j
  show k2_pay1 (F := Ideal) (iblk2 V c 0 t) (iblk2 V c 1 t) j
    = rowDotsColumn (V c main_v76 : S1600000x64.Idx → EReal) (V c main_v83 : S1600000x64.Idx → EReal) (((cfg2.win 2).blk t).view.emb j)
  refine (pay2_at (iblk2 V c 0 t) (iblk2 V c 1 t) j).trans ?_
  refine rowDots_of_row_block (V c main_v76 : S1600000x64.Idx → EReal) (V c main_v83 : S1600000x64.Idx → EReal)
    (iblk2 V c 0 t : Vec Ideal S8000x64 .f32) (iblk2 V c 1 t : Vec Ideal S8000x64 .f32) (8000 * t.val)
    (fun y z h0 h1 => fst_block2 V c t y z h0 h1) (fun y z h0 h1 => snd_block2 V c t y z h0 h1) (j 0) _ ?_
  show win2_2.index t (0 : Fin 2) * 8000 + 1 * (j 0).val = 8000 * t.val + (j 0).val
  rw [e0]; omega

/-- An index of the output array is in point `t`'s block iff each coordinate is in the block's range on its axis. -/
theorem mem_blk2 (t : Fin cfg2.N) (i : S1600000x1.Idx) :
    i ∈ ((cfg2.win 2).blk t).view.set ↔ ∀ a : Fin 2, win2_2.index t a * S8000x1.size a ≤ (i a).val ∧ (i a).val < win2_2.index t a * S8000x1.size a + S8000x1.size a := by
  show i ∈ ((View.whole main_v98).slice (win2_2.rect t)).set ↔ _
  rw [View.set_slice_whole, Rect.mem_set_unit]
  exact Iff.rfl

/-- Every index of the output lies in the block of the point `row / 8000`, which writes back. -/
theorem cover2 (i : S1600000x1.Idx) :
    ∃ t : Fin cfg2.N, (cfg2.win 2).flush t = true ∧ i ∈ ((cfg2.win 2).blk t).view.set := by
  have hi0 : (i 0).val < 1600000 := (i 0).isLt
  have hi1 : (i 1).val < 1 := (i 1).isLt
  have hN : cfg2.N = 200 := N_2
  let t : Fin cfg2.N := ⟨(i 0).val / 8000, by rw [hN]; omega⟩
  obtain ⟨-, -, -, -, e0, e1⟩ := idx_facts2 t
  have ht : t.val = (i 0).val / 8000 := rfl
  refine ⟨t, flush2_2 t, ?_⟩
  rw [mem_blk2]
  intro a
  match a with
  | ⟨0, _⟩ => show win2_2.index t (0 : Fin 2) * 8000 ≤ (i 0).val ∧ (i 0).val < win2_2.index t (0 : Fin 2) * 8000 + 8000; rw [e0, ht]; omega
  | ⟨1, _⟩ => show win2_2.index t (1 : Fin 2) * 1 ≤ (i 1).val ∧ (i 1).val < win2_2.index t (1 : Fin 2) * 1 + 1; rw [e1]; omega

/-- After the region the whole output array is the column of the rows' dot products of the two input arrays as the
    region finds them. -/
theorem column2 (c : Dev nD) :
    (dat2 (F := Ideal) V c).arrAt 2 cfg2.N
      = rowDotsColumn (V c main_v76 : S1600000x64.Idx → EReal) (V c main_v83 : S1600000x64.Idx → EReal) :=
  (dat2 (F := Ideal) V c).arrAt_eq_of_cover 2
    (rowDotsColumn (V c main_v76 : S1600000x64.Idx → EReal) (V c main_v83 : S1600000x64.Idx → EReal))
    (fun t _ => flushed2_eq V c t) cover2

/-- THE FIRST SCORES: the output viewed as a `[1600000]` vector holds, at `r`, the dot product of row `r` of the
    first input array with row `r` of the second, as the region finds them. -/
theorem score2 (c : Dev nD) :
    shapeCast S1600000 ((dat2 (F := Ideal) V c).arrAt 2 cfg2.N) Facts₀.shapeCasts_S1600000x1_S1600000
      = rowDots (V c main_v76 : S1600000x64.Idx → EReal) (V c main_v83 : S1600000x64.Idx → EReal) :=
  (congrArg (fun x : S1600000x1.Idx → EReal => shapeCast S1600000 x Facts₀.shapeCasts_S1600000x1_S1600000) (column2 V c)).trans
    (shapeCast_rowDotsColumn (V c main_v76 : S1600000x64.Idx → EReal) (V c main_v83 : S1600000x64.Idx → EReal)
      Facts₀.shapeCasts_S1600000x1_S1600000)

/-! ## The second score region -/

/-- What a point stores, at `(p, u)`: the dot product of row `p` of its first loaded block with row `p` of its second
    (each block first cast to its own shape, the lane sum into a zero accumulator, the sums stored as a column). -/
theorem pay3_apply (x0 x1 : Vec Ideal S8000x64 .f32) (p : Fin 8000) (u : Fin 1) :
    k3_pay1 (F := Ideal) x0 x1 (ix2 p u) = rowDots x0 x1 (ix1 p) := by
  unfold k3_pay1
  refine (shapeCast_multiReduction_mulf_apply (shapeCast S8000x64 x0 shapeCasts_S8000x64_S8000x64)
    (shapeCast S8000x64 x1 shapeCasts_S8000x64_S8000x64) reduces_S8000x64_S8000 (.inl rfl) rfl shapeCasts_S8000_S8000x1 p u).trans ?_
  exact congrArg₂ (fun x y => rowDots (n := 8000) (K := 64) x y (ix1 p))
    (shapeCast_self x0 shapeCasts_S8000x64_S8000x64) (shapeCast_self x1 shapeCasts_S8000x64_S8000x64)

/-- The same at any index of the stored block. -/
theorem pay3_at (x0 x1 : Vec Ideal S8000x64 .f32) (j : S8000x1.Idx) :
    k3_pay1 (F := Ideal) x0 x1 j = rowDots x0 x1 (ix1 (j 0)) := by
  obtain ⟨p, u, rfl⟩ : ∃ (p : Fin 8000) (u : Fin 1), j = ix2 p u := ⟨j 0, j 1, eq_ix2 j⟩
  exact pay3_apply x0 x1 p u

/-- The printed index maps, decided over the grid: every window's block index is `(t, 0)`. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The first operand's block at point `t` is rows `8000 t …` of the array: entry `y` of the block is entry
    `(8000 t + y 0, y 1)` of the array as the region finds it. -/
theorem fst_block3 (c : Dev nD) (t : Fin cfg3.N) (y : S8000x64.Idx) (z : S1600000x64.Idx)
    (h0 : (z 0).val = 8000 * t.val + (y 0).val) (h1 : (z 1).val = (y 1).val) :
    (iblk3 V c 0 t : Vec Ideal S8000x64 .f32) y = (V c main_v90 : S1600000x64.Idx → EReal) z := by
  obtain ⟨e0, e1, -⟩ := idx_facts3 t
  unfold iblk3
  rw [View.read_apply]
  show V c main_v90 _ = V c main_v90 _
  refine congrArg (V c main_v90) (funext fun a => Fin.ext ?_)
  match a with
  | ⟨0, _⟩ => show win3_0.index t (0 : Fin 2) * 8000 + 1 * (y 0).val = (z 0).val; rw [e0, h0]; omega
  | ⟨1, _⟩ => show win3_0.index t (1 : Fin 2) * 64 + 1 * (y 1).val = (z 1).val; rw [e1, h1]; omega

/-- The second operand's block at point `t` likewise. -/
theorem snd_block3 (c : Dev nD) (t : Fin cfg3.N) (y : S8000x64.Idx) (z : S1600000x64.Idx)
    (h0 : (z 0).val = 8000 * t.val + (y 0).val) (h1 : (z 1).val = (y 1).val) :
    (iblk3 V c 1 t : Vec Ideal S8000x64 .f32) y = (V c main_v97 : S1600000x64.Idx → EReal) z := by
  obtain ⟨-, -, e0, e1, -⟩ := idx_facts3 t
  unfold iblk3
  rw [View.read_apply]
  show V c main_v97 _ = V c main_v97 _
  refine congrArg (V c main_v97) (funext fun a => Fin.ext ?_)
  match a with
  | ⟨0, _⟩ => show win3_1.index t (0 : Fin 2) * 8000 + 1 * (y 0).val = (z 0).val; rw [e0, h0]; omega
  | ⟨1, _⟩ => show win3_1.index t (1 : Fin 2) * 64 + 1 * (y 1).val = (z 1).val; rw [e1, h1]; omega

/-- WHAT POINT `t` WRITES BACK is block `t` of the column of the rows' dot products of the whole arrays as the
    region finds them. -/
theorem flushed3_eq (c : Dev nD) (t : Fin cfg3.N) :
    (dat3 (F := Ideal) V c).flushed 2 t = ((cfg3.win 2).blk t).view.read (Elt Ideal)
      (rowDotsColumn (V c main_v90 : S1600000x64.Idx → EReal) (V c main_v97 : S1600000x64.Idx → EReal)) := by
  show (cfg3.win 2).cut (grid3.coords t) ((dat3 (F := Ideal) V c).after 2 t) = _
  rw [after3_2]
  unfold out3_2
  rw [View.canon_unit_zero hz]
  simp only [View.ld_unit_zero (S := S8000x64) hz]
  obtain ⟨-, -, -, -, e0, e1⟩ := idx_facts3 t
  funext j
  show k3_pay1 (F := Ideal) (iblk3 V c 0 t) (iblk3 V c 1 t) j
    = rowDotsColumn (V c main_v90 : S1600000x64.Idx → EReal) (V c main_v97 : S1600000x64.Idx → EReal) (((cfg3.win 2).blk t).view.emb j)
  refine (pay3_at (iblk3 V c 0 t) (iblk3 V c 1 t) j).trans ?_
  refine rowDots_of_row_block (V c main_v90 : S1600000x64.Idx → EReal) (V c main_v97 : S1600000x64.Idx → EReal)
    (iblk3 V c 0 t : Vec Ideal S8000x64 .f32) (iblk3 V c 1 t : Vec Ideal S8000x64 .f32) (8000 * t.val)
    (fun y z h0 h1 => fst_block3 V c t y z h0 h1) (fun y z h0 h1 => snd_block3 V c t y z h0 h1) (j 0) _ ?_
  show win3_2.index t (0 : Fin 2) * 8000 + 1 * (j 0).val = 8000 * t.val + (j 0).val
  rw [e0]; omega

/-- An index of the output array is in point `t`'s block iff each coordinate is in the block's range on its axis. -/
theorem mem_blk3 (t : Fin cfg3.N) (i : S1600000x1.Idx) :
    i ∈ ((cfg3.win 2).blk t).view.set ↔ ∀ a : Fin 2, win3_2.index t a * S8000x1.size a ≤ (i a).val ∧ (i a).val < win3_2.index t a * S8000x1.size a + S8000x1.size a := by
  show i ∈ ((View.whole main_v100).slice (win3_2.rect t)).set ↔ _
  rw [View.set_slice_whole, Rect.mem_set_unit]
  exact Iff.rfl

/-- Every index of the output lies in the block of the point `row / 8000`, which writes back. -/
theorem cover3 (i : S1600000x1.Idx) :
    ∃ t : Fin cfg3.N, (cfg3.win 2).flush t = true ∧ i ∈ ((cfg3.win 2).blk t).view.set := by
  have hi0 : (i 0).val < 1600000 := (i 0).isLt
  have hi1 : (i 1).val < 1 := (i 1).isLt
  have hN : cfg3.N = 200 := N_3
  let t : Fin cfg3.N := ⟨(i 0).val / 8000, by rw [hN]; omega⟩
  obtain ⟨-, -, -, -, e0, e1⟩ := idx_facts3 t
  have ht : t.val = (i 0).val / 8000 := rfl
  refine ⟨t, flush3_2 t, ?_⟩
  rw [mem_blk3]
  intro a
  match a with
  | ⟨0, _⟩ => show win3_2.index t (0 : Fin 2) * 8000 ≤ (i 0).val ∧ (i 0).val < win3_2.index t (0 : Fin 2) * 8000 + 8000; rw [e0, ht]; omega
  | ⟨1, _⟩ => show win3_2.index t (1 : Fin 2) * 1 ≤ (i 1).val ∧ (i 1).val < win3_2.index t (1 : Fin 2) * 1 + 1; rw [e1]; omega

/-- After the region the whole output array is the column of the rows' dot products of the two input arrays as the
    region finds them. -/
theorem column3 (c : Dev nD) :
    (dat3 (F := Ideal) V c).arrAt 2 cfg3.N
      = rowDotsColumn (V c main_v90 : S1600000x64.Idx → EReal) (V c main_v97 : S1600000x64.Idx → EReal) :=
  (dat3 (F := Ideal) V c).arrAt_eq_of_cover 2
    (rowDotsColumn (V c main_v90 : S1600000x64.Idx → EReal) (V c main_v97 : S1600000x64.Idx → EReal))
    (fun t _ => flushed3_eq V c t) cover3

/-- THE SECOND SCORES: the output viewed as a `[1600000]` vector holds, at `r`, the dot product of row `r` of the
    first input array with row `r` of the second, as the region finds them. -/
theorem score3 (c : Dev nD) :
    shapeCast S1600000 ((dat3 (F := Ideal) V c).arrAt 2 cfg3.N) Facts₀.shapeCasts_S1600000x1_S1600000
      = rowDots (V c main_v90 : S1600000x64.Idx → EReal) (V c main_v97 : S1600000x64.Idx → EReal) :=
  (congrArg (fun x : S1600000x1.Idx → EReal => shapeCast S1600000 x Facts₀.shapeCasts_S1600000x1_S1600000) (column3 V c)).trans
    (shapeCast_rowDotsColumn (V c main_v90 : S1600000x64.Idx → EReal) (V c main_v97 : S1600000x64.Idx → EReal)
      Facts₀.shapeCasts_S1600000x1_S1600000)

end Cert.KernelIdeal.ScoreRegions

end
-- ==== Proof.KernelValue.lean ====
/-
  What the idealized kernel program leaves in its two result buffers, as functions of the argument arrays.

  The contents of the buffers at the twelve segment boundaries of @main are a fold from the launch memory. Followed
  backwards from a result: the last stretch views a score region's [E, 1] column as a vector; the score region leaves
  the lane sums of the products of its two operands' rows; those operands are rows of the node table, gathered by the
  stretch before; the node table is the second aggregation over the second product region's array, whose left operand
  is the rectified first aggregation over the first product region's array; and the index lists and coefficients all
  come from the first stretch, carried unchanged across the regions (a region changes its own arrays only) and the
  later stretches (which do not write them).
-/
import proofs.«147131_j53558242181177_1_alg».proof.Proof.Gen.KernelIdeal.Frame
import proofs.«147131_j53558242181177_1_alg».proof.Proof.HostStretches
import proofs.«147131_j53558242181177_1_alg».proof.Proof.GcnIdeal
import proofs.«147131_j53558242181177_1_alg».proof.Proof.ProductRegions
import proofs.«147131_j53558242181177_1_alg».proof.Proof.ScoreRegions

set_option maxRecDepth 16384

noncomputable section

namespace Cert.KernelIdeal.ValueHand

open Idealize.ShloMosaic Idealize.ShloMosaic.TcCoe Idealize.SL.Sem
open Cert.KernelIdeal Cert.KernelIdeal.Gen Cert.KernelIdeal.Stretches Cert.Gcn Cert.MatProd Cert.RowDots

variable [Cert.KernelIdeal.Facts]
variable (m : (ℓ : Loc nD τ sig) → Buf (Elt Ideal) ℓ) (ρ : Dev nD → PrngReg) (c : Dev nD)

/-! ## Buffers carried from the first stretch to the second product's exit -/

/-- A buffer that neither product region owns and the second stretch does not write holds, when the second product
    is done, what the first stretch left in it. -/
theorem carried (b : Ref sig .tc) (h0 : ∀ w, Pipeline.arrRef spec0 w ≠ b) (h1 : ∀ w, Pipeline.arrRef spec1 w ≠ b)
    (hB : lineB (W4 m ρ c) (Proc.devRef .tc b) = W4 m ρ c (Proc.devRef .tc b)) :
    W7 m ρ c (Proc.devRef .tc b) = lineA (W0 m ρ c) (Proc.devRef .tc b) :=
  (W7_of_ne m ρ c b h1).trans (hB.trans (W4_of_ne m ρ c b h0))

theorem srcL7 : W7 m ρ c (Proc.devRef .tc main_v9) = withLoops (srcRow (m ((c : Thread nD τ).loc main_arg1))) :=
  (carried m ρ c main_v9 (by decide) (by decide) (B_srcL _)).trans (A_srcL (W0 m ρ c))
theorem dstL7 : W7 m ρ c (Proc.devRef .tc main_v10) = withLoops (dstRow (m ((c : Thread nD τ).loc main_arg1))) :=
  (carried m ρ c main_v10 (by decide) (by decide) (B_dstL _)).trans (A_dstL (W0 m ρ c))
theorem coeff7 : W7 m ρ c (Proc.devRef .tc main_v34)
    = coeff (F := Ideal) (withLoops (srcRow (m ((c : Thread nD τ).loc main_arg1)))) (withLoops (dstRow (m ((c : Thread nD τ).loc main_arg1)))) :=
  (carried m ρ c main_v34 (by decide) (by decide) (B_coeff _)).trans (A_coeff (W0 m ρ c))
theorem src17 : W7 m ρ c (Proc.devRef .tc main_v1) = srcRow (m ((c : Thread nD τ).loc main_arg1)) :=
  (carried m ρ c main_v1 (by decide) (by decide) (B_src1 _)).trans (A_src1 (W0 m ρ c))
theorem dst17 : W7 m ρ c (Proc.devRef .tc main_v3) = dstRow (m ((c : Thread nD τ).loc main_arg1)) :=
  (carried m ρ c main_v3 (by decide) (by decide) (B_dst1 _)).trans (A_dst1 (W0 m ρ c))
theorem src27 : W7 m ρ c (Proc.devRef .tc main_v5) = srcRow (m ((c : Thread nD τ).loc main_arg2)) :=
  (carried m ρ c main_v5 (by decide) (by decide) (B_src2 _)).trans (A_src2 (W0 m ρ c))
theorem dst27 : W7 m ρ c (Proc.devRef .tc main_v7) = dstRow (m ((c : Thread nD τ).loc main_arg2)) :=
  (carried m ρ c main_v7 (by decide) (by decide) (B_dst2 _)).trans (A_dst2 (W0 m ρ c))
theorem bias27 : W7 m ρ c (Proc.devRef .tc main_arg6) = m ((c : Thread nD τ).loc main_arg6) :=
  (carried m ρ c main_arg6 (by decide) (by decide) (B_arg6 _)).trans (A_arg6 (W0 m ρ c))

/-! ## The two products -/

/-- The first product: x · W₁. -/
theorem prod4 : W4 m ρ c (Proc.devRef .tc main_v35)
    = prod (m ((c : Thread nD τ).loc main_arg0)) (m ((c : Thread nD τ).loc main_arg3)) := by
  refine (W4_arr m ρ c 2).trans ((ProductRegions.product0 (V3 m ρ) c).trans ?_)
  exact congrArg₂ prod (A_arg0 (W0 m ρ c)) (A_arg3 (W0 m ρ c))

/-- The hidden table when the second product is entered. -/
theorem hidden6 : W6 m ρ c (Proc.devRef .tc main_v52)
    = hidden (F := Ideal) (prod (m ((c : Thread nD τ).loc main_arg0)) (m ((c : Thread nD τ).loc main_arg3)))
        (m ((c : Thread nD τ).loc main_arg1)) (m ((c : Thread nD τ).loc main_arg4)) := by
  refine (B_hidden (W4 m ρ c)).trans ?_
  rw [prod4 m ρ c, W4_of_ne m ρ c main_v9 (by decide), W4_of_ne m ρ c main_v10 (by decide), W4_of_ne m ρ c main_v34 (by decide),
    W4_of_ne m ρ c main_arg4 (by decide)]
  rw [show W3 m ρ c (Proc.devRef .tc main_v9) = _ from A_srcL (W0 m ρ c), show W3 m ρ c (Proc.devRef .tc main_v10) = _ from A_dstL (W0 m ρ c),
    show W3 m ρ c (Proc.devRef .tc main_v34) = _ from A_coeff (W0 m ρ c), show W3 m ρ c (Proc.devRef .tc main_arg4) = _ from A_arg4 (W0 m ρ c)]
  rfl

/-- The second product: hidden · W₂. -/
theorem prod7 : W7 m ρ c (Proc.devRef .tc main_v53)
    = prod (hidden (F := Ideal) (prod (m ((c : Thread nD τ).loc main_arg0)) (m ((c : Thread nD τ).loc main_arg3)))
        (m ((c : Thread nD τ).loc main_arg1)) (m ((c : Thread nD τ).loc main_arg4))) (m ((c : Thread nD τ).loc main_arg5)) := by
  refine (W7_arr m ρ c 2).trans ((ProductRegions.product1 (V6 m ρ) c).trans ?_)
  refine congrArg₂ prod (hidden6 m ρ c) ?_
  exact (B_arg5 (W4 m ρ c)).trans ((W4_of_ne m ρ c main_arg5 (by decide)).trans (A_arg5 (W0 m ρ c)))

/-! ## The node table, and its rows at the listed nodes -/

/-- The node table the last stretch computes is the one of the argument arrays. -/
theorem table7 : tableOf (W7 m ρ c)
    = table (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  unfold tableOf
  rw [prod7 m ρ c, srcL7, dstL7, coeff7, bias27]
  rfl

/-! ## The two score regions and the results -/

/-- The first result: the scores of the pairs of the first edge list. -/
theorem result0 : W12 m ρ c (Proc.devRef .tc main_v99)
    = scores (table (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)))
      (m ((c : Thread nD τ).loc main_arg1)) := by
  refine (E_keep (W11 m ρ c)).trans ((W11_of_ne m ρ c main_v99 (by decide)).trans ((D_vec (W9 m ρ c)).trans ?_))
  rw [show W9 m ρ c (Proc.devRef .tc main_v98) = (dat2 (V8 m ρ) c).arrAt 2 cfg2.N from W9_arr m ρ c 2, ScoreRegions.score2 (V8 m ρ) c]
  unfold scores
  refine congrArg₂ rowDots ?_ ?_
  · refine (C_rows_src1 (W7 m ρ c)).trans ?_
    rw [table7 m ρ c, src17]
  · refine (C_rows_dst1 (W7 m ρ c)).trans ?_
    rw [table7 m ρ c, dst17]

/-- The second result: the scores of the pairs of the second edge list. -/
theorem result1 : W12 m ρ c (Proc.devRef .tc main_v101)
    = scores (table (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)))
      (m ((c : Thread nD τ).loc main_arg2)) := by
  refine (E_vec (W11 m ρ c)).trans ?_
  rw [show W11 m ρ c (Proc.devRef .tc main_v100) = (dat3 (V10 m ρ) c).arrAt 2 cfg3.N from W11_arr m ρ c 2, ScoreRegions.score3 (V10 m ρ) c]
  unfold scores
  refine congrArg₂ rowDots ?_ ?_
  · refine (D_rows_src2 (W9 m ρ c)).trans ((W9_of_ne m ρ c main_v90 (by decide)).trans ((C_rows_src2 (W7 m ρ c)).trans ?_))
    rw [table7 m ρ c, src27]
  · refine (D_rows_dst2 (W9 m ρ c)).trans ((W9_of_ne m ρ c main_v97 (by decide)).trans ((C_rows_dst2 (W7 m ρ c)).trans ?_))
    rw [table7 m ρ c, dst27]

end Cert.KernelIdeal.ValueHand

end
-- ==== Proof.RefValue.lean ====
/-
  What the idealized reference program leaves in its two result buffers, as functions of the argument arrays.

  The reference is one straight line of host operations: after it, a buffer holds the composition of the operations
  that lead to it. For the results that composition is the specification's chain with the host's matrix product
  (dot_general, contracting the second axis of the left operand with the first of the right one) as the product and
  the host's sum over the lanes of an entry-by-entry product as the score. Over the extended reals the host's matrix
  product is the entry-by-entry product ∑ k, x[p, k] · w[k, q], and the host's lane sum from the initial value 0 is
  ∑ j, a[e, j] · b[e, j]: the results are the scores of the node table. No operation writes an argument.
-/
import proofs.«147131_j53558242181177_1_alg».proof.Proof.RefRun
import proofs.«147131_j53558242181177_1_alg».proof.Proof.GcnIdeal
import proofs.«147131_j53558242181177_1_alg».proof.Proof.LibConcatPair

set_option maxRecDepth 16384

noncomputable section

namespace Cert.ReferenceIdeal.RefValue

open Idealize.ShloMosaic Idealize.ShloMosaic.StableHlo Cert.Gcn Cert.MatProd Cert.RowDots Cert.RowLayers

variable [Cert.KernelIdeal.Facts₀] [Cert.ReferenceIdeal.Facts]

/-! ## The line read at the results, for any float values -/

section Read
variable {F : FTy → Type} [FloatOps F]
variable (W : Valuation Cert.ReferenceIdeal.τ Cert.ReferenceIdeal.sig (Elt F))

open Cert.ReferenceIdeal in
/-- The node table as the reference computes it: the chain over the host's two matrix products. -/
abbrev refTable : FVec F Cert.KernelIdeal.S100000x64 .f32 :=
  nodeTable (F := F)
    (Host.dotGeneral dot_S100000x128_S128x64_S100000x64_1_0_0_1_n_n none
      (hidden (F := F) (Host.dotGeneral dot_S100000x128_S128x128_S100000x128_1_0_0_1_n_n none (W (Proc.devRef .tc main_arg0)) (W (Proc.devRef .tc main_arg3)))
        (W (Proc.devRef .tc main_arg1)) (W (Proc.devRef .tc main_arg4)))
      (W (Proc.devRef .tc main_arg5)))
    (W (Proc.devRef .tc main_arg1)) (W (Proc.devRef .tc main_arg6))

set_option maxHeartbeats 64000000 in
open Cert.ReferenceIdeal Cert.ReferenceIdeal.Facts₀ in
/-- The first result: the host's lane sums over the rows of the table at the first edge list's sources and targets. -/
theorem read0 : after Cert.ReferenceIdeal.ValueP.ops W (Proc.devRef .tc main_v116)
    = Host.reduceAdd (mulf (rowsAt (refTable W) (srcRow (W (Proc.devRef .tc main_arg1)))) (rowsAt (refTable W) (dstRow (W (Proc.devRef .tc main_arg1)))))
        (constant S_ .f32 0x00000000#32) reducesTo_S1600000x64_S1600000_d1 h_S_ := by
  dsimp only [Cert.ReferenceIdeal.ValueP.ops]
  after_results_pairs
  rfl

set_option maxHeartbeats 64000000 in
open Cert.ReferenceIdeal Cert.ReferenceIdeal.Facts₀ in
/-- The second result: the same over the second edge list. -/
theorem read1 : after Cert.ReferenceIdeal.ValueP.ops W (Proc.devRef .tc main_v136)
    = Host.reduceAdd (mulf (rowsAt (refTable W) (srcRow (W (Proc.devRef .tc main_arg2)))) (rowsAt (refTable W) (dstRow (W (Proc.devRef .tc main_arg2)))))
        (constant S_ .f32 0x00000000#32) reducesTo_S1600000x64_S1600000_d1 h_S_ := by
  dsimp only [Cert.ReferenceIdeal.ValueP.ops]
  after_results_pairs
  rfl

/-! ## No operation writes an argument -/

local macro "kept_line" : tactic => `(tactic| (dsimp only [Cert.ReferenceIdeal.ValueP.ops]; after_results_simp))

set_option maxHeartbeats 8000000 in
open Cert.ReferenceIdeal in
theorem kept0 : after Cert.ReferenceIdeal.ValueP.ops W (Proc.devRef .tc main_arg0) = W (Proc.devRef .tc main_arg0) := by kept_line
set_option maxHeartbeats 8000000 in
open Cert.ReferenceIdeal in
theorem kept1 : after Cert.ReferenceIdeal.ValueP.ops W (Proc.devRef .tc main_arg1) = W (Proc.devRef .tc main_arg1) := by kept_line
set_option maxHeartbeats 8000000 in
open Cert.ReferenceIdeal in
theorem kept2 : after Cert.ReferenceIdeal.ValueP.ops W (Proc.devRef .tc main_arg2) = W (Proc.devRef .tc main_arg2) := by kept_line
set_option maxHeartbeats 8000000 in
open Cert.ReferenceIdeal in
theorem kept3 : after Cert.ReferenceIdeal.ValueP.ops W (Proc.devRef .tc main_arg3) = W (Proc.devRef .tc main_arg3) := by kept_line
set_option maxHeartbeats 8000000 in
open Cert.ReferenceIdeal in
theorem kept4 : after Cert.ReferenceIdeal.ValueP.ops W (Proc.devRef .tc main_arg4) = W (Proc.devRef .tc main_arg4) := by kept_line
set_option maxHeartbeats 8000000 in
open Cert.ReferenceIdeal in
theorem kept5 : after Cert.ReferenceIdeal.ValueP.ops W (Proc.devRef .tc main_arg5) = W (Proc.devRef .tc main_arg5) := by kept_line
set_option maxHeartbeats 8000000 in
open Cert.ReferenceIdeal in
theorem kept6 : after Cert.ReferenceIdeal.ValueP.ops W (Proc.devRef .tc main_arg6) = W (Proc.devRef .tc main_arg6) := by kept_line

end Read

/-! ## Over the extended reals -/

section AtIdeal
variable (W : Valuation Cert.ReferenceIdeal.τ Cert.ReferenceIdeal.sig (Elt Ideal))

open Cert.ReferenceIdeal in
/-- The first layer's product contracts the second axis of x with the first of W₁. -/
theorem rowsTimesCols128 : RowsTimesCols dot_S100000x128_S128x128_S100000x128_1_0_0_1_n_n :=
  ⟨rfl, rfl, fun _ _ => rfl, fun _ _ => rfl, fun _ _ => rfl, fun _ _ => rfl⟩

open Cert.ReferenceIdeal in
/-- The second layer's product likewise. -/
theorem rowsTimesCols64 : RowsTimesCols dot_S100000x128_S128x64_S100000x64_1_0_0_1_n_n :=
  ⟨rfl, rfl, fun _ _ => rfl, fun _ _ => rfl, fun _ _ => rfl, fun _ _ => rfl⟩

open Cert.ReferenceIdeal in
/-- The reference's node table is the table of the argument arrays. -/
theorem refTable_eq : refTable (F := Ideal) W
    = table (W (Proc.devRef .tc main_arg0)) (W (Proc.devRef .tc main_arg1)) (W (Proc.devRef .tc main_arg3)) (W (Proc.devRef .tc main_arg4))
        (W (Proc.devRef .tc main_arg5)) (W (Proc.devRef .tc main_arg6)) := by
  dsimp only [refTable]
  rw [dotGeneral_eq_prod rowsTimesCols128, dotGeneral_eq_prod rowsTimesCols64]
  rfl

open Cert.ReferenceIdeal in
/-- The first result is the scores of the first edge list's pairs. -/
theorem out0 : after Cert.ReferenceIdeal.ValueP.ops W (Proc.devRef .tc main_v116)
    = scores (table (W (Proc.devRef .tc main_arg0)) (W (Proc.devRef .tc main_arg1)) (W (Proc.devRef .tc main_arg3)) (W (Proc.devRef .tc main_arg4))
        (W (Proc.devRef .tc main_arg5)) (W (Proc.devRef .tc main_arg6))) (W (Proc.devRef .tc main_arg1)) := by
  rw [read0 (F := Ideal) W, refTable_eq W]
  exact hostReduceAdd_mulf_eq _ _ _ _

open Cert.ReferenceIdeal in
/-- The second result is the scores of the second edge list's pairs. -/
theorem out1 : after Cert.ReferenceIdeal.ValueP.ops W (Proc.devRef .tc main_v136)
    = scores (table (W (Proc.devRef .tc main_arg0)) (W (Proc.devRef .tc main_arg1)) (W (Proc.devRef .tc main_arg3)) (W (Proc.devRef .tc main_arg4))
        (W (Proc.devRef .tc main_arg5)) (W (Proc.devRef .tc main_arg6))) (W (Proc.devRef .tc main_arg2)) := by
  rw [read1 (F := Ideal) W, refTable_eq W]
  exact hostReduceAdd_mulf_eq _ _ _ _

end AtIdeal

end Cert.ReferenceIdeal.RefValue

end
-- ==== Proof.lean ====
/-
  The certificate's claim: the kernel program (word level and idealized) and the idealized reference each run to the
  end with their argument arrays unchanged, and over the extended reals the idealized kernel and the idealized
  reference leave equal results.

  Both programs compute, from node features x, an edge list, a second list of node pairs and two layers' weights and
  biases, a table z of 64 numbers per node (two graph-convolution layers over the edge list with one self-loop per
  node, each layer a matrix product followed by a degree-normalised sum over incoming ends plus a bias, the first
  rectified) and then, for every pair (s, t) of either list, the sum over the lanes of z[s, ·] · z[t, ·].
  They run the same chain of index operations, gathers and scatter-additions; they differ in three places only.
  The kernel computes each matrix product block of rows by block of rows, as a product into a zero accumulator of
  operands first changed in float format; the reference as one host product. Over the extended reals a change of
  format is the identity and both are ∑ k, x[p, k] · w[k, q], entry by entry. The kernel computes the scores block of
  rows by block of rows as a lane sum of entry-by-entry products kept as a column and then viewed as a vector; the
  reference as one host sum over the lanes. Both are 0 + ∑ j, a[e, j] · b[e, j]. And the reference prepares the index
  lists and the coefficients once per layer, the kernel once: the same arrays. So each result is one and the same
  function of the argument arrays, and nothing is asked of the entries (no finiteness is used).

  The word-level kernel's and the idealized kernel's frames are the generated ones. The idealized kernel is the
  word-level kernel's own text read over the extended reals: no rewrite was applied, so that conjunct is trivial.
-/
import proofs.«147131_j53558242181177_1_alg».proof.Defs
import proofs.«147131_j53558242181177_1_alg».proof.Proof.Gen.Kernel
import proofs.«147131_j53558242181177_1_alg».proof.Proof.Gen.Kernel.Skeleton
import proofs.«147131_j53558242181177_1_alg».proof.Proof.Gen.Kernel.Launch
import proofs.«147131_j53558242181177_1_alg».proof.Proof.Gen.Kernel.Points
import proofs.«147131_j53558242181177_1_alg».proof.Proof.Gen.Kernel.Frame
import proofs.«147131_j53558242181177_1_alg».proof.Proof.Gen.KernelIdeal
import proofs.«147131_j53558242181177_1_alg».proof.Proof.Gen.KernelIdeal.Skeleton
import proofs.«147131_j53558242181177_1_alg».proof.Proof.Gen.KernelIdeal.Launch
import proofs.«147131_j53558242181177_1_alg».proof.Proof.Gen.KernelIdeal.Points
import proofs.«147131_j53558242181177_1_alg».proof.Proof.Gen.KernelIdeal.Frame
import proofs.«147131_j53558242181177_1_alg».proof.Proof.Gen.ReferenceIdeal
import proofs.«147131_j53558242181177_1_alg».proof.Proof.Gen.Pre_finite_inputs
import proofs.«147131_j53558242181177_1_alg».proof.Proof.KernelRun
import proofs.«147131_j53558242181177_1_alg».proof.Proof.KernelValue
import proofs.«147131_j53558242181177_1_alg».proof.Proof.RefRun
import proofs.«147131_j53558242181177_1_alg».proof.Proof.RefValue
import Idealize.ShloMosaic.Adequacy
import Idealize.ShloMosaic.Init

noncomputable section

namespace Cert.Proof

open Idealize.ShloMosaic Idealize.ShloMosaic.StableHlo Idealize.SL.Sem Cert.Gcn

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The idealized reference runs and keeps its arguments: its run as a line of host operations, none of which writes an
    argument. -/
theorem frame_reference : Cert.frame_ReferenceIdeal := fun m ρ _ =>
  (θ_run Cert.ReferenceIdeal.defs _ _).mono
    (fun _ h c =>
      ⟨(h c Cert.ReferenceIdeal.main_arg0).trans (Cert.ReferenceIdeal.RefValue.kept0 (launchContents m c)),
       (h c Cert.ReferenceIdeal.main_arg1).trans (Cert.ReferenceIdeal.RefValue.kept1 (launchContents m c)),
       (h c Cert.ReferenceIdeal.main_arg2).trans (Cert.ReferenceIdeal.RefValue.kept2 (launchContents m c)),
       (h c Cert.ReferenceIdeal.main_arg3).trans (Cert.ReferenceIdeal.RefValue.kept3 (launchContents m c)),
       (h c Cert.ReferenceIdeal.main_arg4).trans (Cert.ReferenceIdeal.RefValue.kept4 (launchContents m c)),
       (h c Cert.ReferenceIdeal.main_arg5).trans (Cert.ReferenceIdeal.RefValue.kept5 (launchContents m c)),
       (h c Cert.ReferenceIdeal.main_arg6).trans (Cert.ReferenceIdeal.RefValue.kept6 (launchContents m c))⟩)
    (Cert.ReferenceIdeal.ValueP.run (F := Ideal) m ρ)

/-- Equal argument arrays give equal scores. -/
theorem scores_congr {x x' : FVec Ideal Cert.KernelIdeal.S100000x128 .f32} {e e' p p' : IVec Cert.KernelIdeal.S2x1600000 32}
    {w1 w1' : FVec Ideal Cert.KernelIdeal.S128x128 .f32} {b1 b1' : FVec Ideal Cert.KernelIdeal.S128 .f32}
    {w2 w2' : FVec Ideal Cert.KernelIdeal.S128x64 .f32} {b2 b2' : FVec Ideal Cert.KernelIdeal.S64 .f32}
    (hx : x' = x) (he : e' = e) (hp : p' = p) (hw1 : w1' = w1) (hb1 : b1' = b1) (hw2 : w2' = w2) (hb2 : b2' = b2) :
    scores (table x' e' w1' b1' w2' b2') p' = scores (table x e w1 b1 w2 b2) p := by
  subst hx he hp hw1 hb1 hw2 hb2; rfl

/-- Over the extended reals, from memories that agree on the arguments, both programs end with each result at the
    scores of the node table of the argument arrays, over the first and over the second list of pairs. -/
theorem algebraic : Cert.algebraic_KernelIdeal_ReferenceIdeal := by
  intro m ρ m' ρ' _ hagree
  refine ⟨fun c => scores (table (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)))
        (m ((c.tc : Thread Cert.KernelIdeal.nD Cert.KernelIdeal.τ).loc Cert.KernelIdeal.main_arg1)),
      fun c => scores (table (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)))
        (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.ValueHand.result0 m ρ c), (h c).2.1.trans (Cert.KernelIdeal.ValueHand.result1 m ρ c), (h c).2.2⟩)
      (Cert.KernelIdeal.Whole.run (F := Ideal) m ρ)
  · refine (θ_run Cert.ReferenceIdeal.defs _ _).mono (fun r h c => ?_) (Cert.ReferenceIdeal.ValueP.run (F := Ideal) m' ρ')
    obtain ⟨a0, a1, a2, a3, a4, a5, a6⟩ := hagree c
    refine ⟨(h c Cert.ReferenceIdeal.main_v116).trans ((Cert.ReferenceIdeal.RefValue.out0 (launchContents m' c)).trans ?_),
      (h c Cert.ReferenceIdeal.main_v136).trans ((Cert.ReferenceIdeal.RefValue.out1 (launchContents m' c)).trans ?_),
      (h c Cert.ReferenceIdeal.main_arg0).trans (Cert.ReferenceIdeal.RefValue.kept0 (launchContents m' c)),
      (h c Cert.ReferenceIdeal.main_arg1).trans (Cert.ReferenceIdeal.RefValue.kept1 (launchContents m' c)),
      (h c Cert.ReferenceIdeal.main_arg2).trans (Cert.ReferenceIdeal.RefValue.kept2 (launchContents m' c)),
      (h c Cert.ReferenceIdeal.main_arg3).trans (Cert.ReferenceIdeal.RefValue.kept3 (launchContents m' c)),
      (h c Cert.ReferenceIdeal.main_arg4).trans (Cert.ReferenceIdeal.RefValue.kept4 (launchContents m' c)),
      (h c Cert.ReferenceIdeal.main_arg5).trans (Cert.ReferenceIdeal.RefValue.kept5 (launchContents m' c)),
      (h c Cert.ReferenceIdeal.main_arg6).trans (Cert.ReferenceIdeal.RefValue.kept6 (launchContents m' c))⟩
    · exact scores_congr a0 a1 a1 a3 a4 a5 a6
    · exact scores_congr a0 a1 a2 a3 a4 a5 a6

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
